-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S3x64 : Shape := ⟨2, ![3, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S6x64 : Shape := ⟨2, ![6, 64]⟩
abbrev S64x1 : Shape := ⟨2, ![64, 1]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S6x64 : S_.BroadcastsInDim S6x64 (![] : Fin 0 → Fin S6x64.rank)
  reducesTo_S6x64_S_d0_1 : S6x64.ReducesTo [0, 1] S_
  bcast_S_S64x1 : S_.BroadcastsInDim S64x1 (![] : Fin 0 → Fin S64x1.rank)
  reducesTo_S64x1_S_d0_1 : S64x1.ReducesTo [0, 1] S_

variable [Facts]

def fn_part3 {F : FTy → Type} [FloatOps F] (main_arg12 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S1 .f32) (main_arg9 : FVec F S6x64 .f32) (main_arg10 : FVec F S64 .f32) (main_arg11 : FVec F S64x1 .f32) (main_arg12 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S6x64 .f32 := Host.absf main_arg9
  let main_cst_14 : FVec F S_ .f32 := constant S_ .f32 0x7F800000#32
  let main_v40 : FVec F S6x64 .f32 := broadcastInDim S6x64 ![] bcast_S_S6x64 main_cst_14
  let main_v41 : IVec S6x64 1 := cmpf .olt main_v39 main_v40
  let main_c_15 : IVec S_ 1 := constantI S_ 1 1#1
  let main_v42 : IVec S_ 1 := (fun x v => Host.reduce IntOp.andi x v reducesTo_S6x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg11
  let main_cst_18 : FVec F S_ .f32 := constant S_ .f32 0x7F800000#32
  let main_v50 : FVec F S64x1 .f32 := broadcastInDim S64x1 ![] bcast_S_S64x1 main_cst_18
  fn_part3 (F := F) main_arg12 main_v48 main_v49 main_v50

def fn_part1 {F : FTy → Type} [FloatOps F] (main_arg5 : FVec F S64x32 .f32) (main_arg6 : FVec F S32 .f32) (main_arg7 : FVec F S32x1 .f32) (main_arg8 : FVec F S1 .f32) (main_arg9 : FVec F S6x64 .f32) (main_arg10 : FVec F S64 .f32) (main_arg11 : FVec F S64x1 .f32) (main_arg12 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x1 .f32 := Host.absf main_arg7
  let main_cst_10 : FVec F S_ .f32 := constant S_ .f32 0x7F800000#32
  let main_v30 : FVec F S32x1 .f32 := broadcastInDim S32x1 ![] bcast_S_S32x1 main_cst_10
  let main_v31 : IVec S32x1 1 := cmpf .olt main_v29 main_v30
  let main_c_11 : IVec S_ 1 := constantI S_ 1 1#1
  let main_v32 : IVec S_ 1 := (fun x v => Host.reduce IntOp.andi x v reducesTo_S32x1_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x3 .f32) (main_arg1 : IVec S2x1600000 32) (main_arg2 : FVec F S3x64 .f32) (main_arg3 : FVec F S3x64 .f32) (main_arg4 : FVec F S64 .f32) (main_arg5 : FVec F S64x32 .f32) (main_arg6 : FVec F S32 .f32) (main_arg7 : FVec F S32x1 .f32) (main_arg8 : FVec F S1 .f32) (main_arg9 : FVec F S6x64 .f32) (main_arg10 : FVec F S64 .f32) (main_arg11 : FVec F S64x1 .f32) (main_arg12 : FVec F S1 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x64 .f32 := Host.absf main_arg2
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S3x64 .f32 := Host.absf main_arg3
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_v13 main_v16
-- ==== Kernel.lean ====
abbrev S100000x3 : Shape := ⟨2, ![100000, 3]⟩
abbrev S2x1600000 : Shape := ⟨2, ![2, 1600000]⟩
abbrev S3x64 : Shape := ⟨2, ![3, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S6x64 : Shape := ⟨2, ![6, 64]⟩
abbrev S64x1 : Shape := ⟨2, ![64, 1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S1x32 : Shape := ⟨2, ![1, 32]⟩
abbrev S1x1 : Shape := ⟨2, ![1, 1]⟩
abbrev S8000x64 : Shape := ⟨2, ![8000, 64]⟩
abbrev S8000x1 : Shape := ⟨2, ![8000, 1]⟩
abbrev S8000x32 : Shape := ⟨2, ![8000, 32]⟩
abbrev S8000x6 : Shape := ⟨2, ![8000, 6]⟩

abbrev nBuf : Space → Nat
  | .hbm => 74
  | .vmem => 14
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S3x64, .f32⟩
  | .hbm, ⟨3, _⟩ => ⟨S3x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S6x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x3, .f32⟩
  | .hbm, ⟨26, _⟩ => ⟨S_, .f32⟩
  | .hbm, ⟨27, _⟩ => ⟨S100000x3, .f32⟩
  | .hbm, ⟨28, _⟩ => ⟨S1600000x1, .i32⟩
  | .hbm, ⟨29, _⟩ => ⟨S100000x3, .f32⟩
  | .hbm, ⟨30, _⟩ => ⟨S_, .f32⟩
  | .hbm, ⟨31, _⟩ => ⟨S1600000x1, .f32⟩
  | .hbm, ⟨32, _⟩ => ⟨S_, .f32⟩
  | .hbm, ⟨33, _⟩ => ⟨S100000x1, .f32⟩
  | .hbm, ⟨34, _⟩ => ⟨S1600000x1, .i32⟩
  | .hbm, ⟨35, _⟩ => ⟨S100000x1, .f32⟩
  | .hbm, ⟨36, _⟩ => ⟨S_, .f32⟩
  | .hbm, ⟨37, _⟩ => ⟨S100000x1, .f32⟩
  | .hbm, ⟨38, _⟩ => ⟨S100000x1, .f32⟩
  | .hbm, ⟨39, _⟩ => ⟨S100000x3, .f32⟩
  | .hbm, ⟨40, _⟩ => ⟨S100000x3, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x64, .f32⟩
  | .hbm, ⟨68, _⟩ => ⟨S1x32, .f32⟩
  | .hbm, ⟨69, _⟩ => ⟨S1x1, .f32⟩
  | .hbm, ⟨70, _⟩ => ⟨S1x64, .f32⟩
  | .hbm, ⟨71, _⟩ => ⟨S1x1, .f32⟩
  | .hbm, ⟨72, _⟩ => ⟨S1600000x1, .f32⟩
  | .hbm, ⟨73, _⟩ => ⟨S1600000, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S64x32, .f32⟩
  | .local _ .vmem, ⟨5, _⟩ => ⟨S1x32, .f32⟩
  | .local _ .vmem, ⟨6, _⟩ => ⟨S32x1, .f32⟩
  | .local _ .vmem, ⟨7, _⟩ => ⟨S1x1, .f32⟩
  | .local _ .vmem, ⟨8, _⟩ => ⟨S6x64, .f32⟩
  | .local _ .vmem, ⟨9, _⟩ => ⟨S1x64, .f32⟩
  | .local _ .vmem, ⟨10, _⟩ => ⟨S64x1, .f32⟩
  | .local _ .vmem, ⟨11, _⟩ => ⟨S1x1, .f32⟩
  | .local _ .vmem, ⟨12, _⟩ => ⟨S8000x1, .f32⟩
  | .local _ .vmem, ⟨13, _⟩ => ⟨S8000x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call0_cst : Ref sig .tc := ⟨.hbm, 47, rfl⟩
abbrev main_call0_v0 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_c_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8000x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x3 : S_.BroadcastsInDim S100000x3 (![] : Fin 0 → Fin S100000x3.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x3_0_1 : S100000x1.BroadcastsInDim S100000x3 (![0, 1] : Fin 2 → Fin S100000x3.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  shapeCasts_S32_S1x32 : S32.ShapeCasts S1x32
  shapeCasts_S1_S1x1 : S1.ShapeCasts S1x1
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  slices_S8000x64_o0_0_S8000x1 : S8000x64.Slices ![0, 0] S8000x1
  slices_S8000x64_o0_1_S8000x1 : S8000x64.Slices ![0, 1] S8000x1
  slices_S8000x64_o0_2_S8000x1 : S8000x64.Slices ![0, 2] S8000x1
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  concatenates_S8000x1_S8000x1_S8000x1_S8000x1_S8000x1_S8000x1_S8000x6_d1 : Shape.Concatenates [S8000x1, S8000x1, S8000x1, S8000x1, S8000x1, S8000x1] S8000x6 1
  inb_S6x64_S6x64_0_0 : ∀ a, (![0, 0] : Fin 2 → Nat) a + S6x64.size a ≤ S6x64.size a
  h_S6x64 : 0 < S6x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x1_S64x1_0_0 : ∀ a, (![0, 0] : Fin 2 → Nat) a + S64x1.size a ≤ S64x1.size a
  h_S64x1 : 0 < S64x1.numel
  inb_S8000x1_S8000x1_0_0 : ∀ a, (![0, 0] : Fin 2 → Nat) a + S8000x1.size a ≤ S8000x1.size a
  h_S8000x1 : 0 < S8000x1.numel
  shapeCasts_S1600000x1_S1600000 : S1600000x1.ShapeCasts S1600000
  gather_S100000x3_S1600000x1_S1600000x3_1_0_n_n_0_1_13_wf : GatherDims.WF S100000x3 S1600000x1 S1600000x3 [1] [0] [] [0] [] 1 ![1, 3]
  scatter_S100000x3_S1600000x1_S1600000x3_1_0_0_1_wf : ScatterDims.WF S100000x3 S1600000x1 S1600000x3 [1] [0] [0] 1
  scatter_S100000x1_S1600000x1_S1600000x1_1_0_0_1_wf : ScatterDims.WF S100000x1 S1600000x1 S1600000x1 [1] [0] [0] 1
  dot_S100000x3_S3x64_S100000x64_1_0_0_1_n_n_wf : DotDims.WF S100000x3 S3x64 S100000x64 [1] [0] [0] [1] [] []
  gather_S100000x64_S1600000x1_S1600000x64_1_0_n_n_0_1_164_wf : GatherDims.WF S100000x64 S1600000x1 S1600000x64 [1] [0] [] [0] [] 1 ![1, 64]
  dot_S8000x64_S64x32_S8000x32_1_0_0_1_n_n_wf : DotDims.WF S8000x64 S64x32 S8000x32 [1] [0] [0] [1] [] []
  dot_S8000x32_S32x1_S8000x1_1_0_0_1_n_n_wf : DotDims.WF S8000x32 S32x1 S8000x1 [1] [0] [0] [1] [] []
  dot_S8000x6_S6x64_S8000x64_1_0_0_1_n_n_wf : DotDims.WF S8000x6 S6x64 S8000x64 [1] [0] [0] [1] [] []
  dot_S8000x64_S64x1_S8000x1_1_0_0_1_n_n_wf : DotDims.WF S8000x64 S64x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .f32 = 32 ∨ (Rect.block (s := S1600000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6x64.size a ≤ S6x64.size a
  hwx0_6 : ∀ i : grid0.Coords, EltTy.bits .f32 = 32 ∨ (Rect.block (s := S6x64) S6x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1.size a ≤ S64x1.size a
  hwx0_8 : ∀ i : grid0.Coords, EltTy.bits .f32 = 32 ∨ (Rect.block (s := S64x1) S64x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8000x1.size a ≤ S1600000x1.size a
  hwx0_10 : ∀ i : grid0.Coords, EltTy.bits .f32 = 32 ∨ (Rect.block (s := S1600000x1) S8000x1.size (cc0_transform_10 i) (hinb0_10 i)).WholeWords (EltTy.packing .f32)

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf
def dot_S8000x32_S32x1_S8000x1_1_0_0_1_n_n : DotDims S8000x32 S32x1 S8000x1 where
  lhsContracting := [1]
  rhsContracting := [0]
  lhsNonContracting := [0]
  rhsNonContracting := [1]
  lhsBatch := []
  rhsBatch := []
  wf := dot_S8000x32_S32x1_S8000x1_1_0_0_1_n_n_wf
def dot_S8000x6_S6x64_S8000x64_1_0_0_1_n_n : DotDims S8000x6 S6x64 S8000x64 where
  lhsContracting := [1]
  rhsContracting := [0]
  lhsNonContracting := [0]
  rhsNonContracting := [1]
  lhsBatch := []
  rhsBatch := []
  wf := dot_S8000x6_S6x64_S8000x64_1_0_0_1_n_n_wf
def dot_S8000x64_S64x1_S8000x1_1_0_0_1_n_n : DotDims S8000x64 S64x1 S8000x1 where
  lhsContracting := [1]
  rhsContracting := [0]
  lhsNonContracting := [0]
  rhsNonContracting := [1]
  lhsBatch := []
  rhsBatch := []
  wf := dot_S8000x64_S64x1_S8000x1_1_0_0_1_n_n_wf

abbrev win0_0 : Pipeline.Window sig grid0 :=
  Pipeline.Window.ofSpec (Memref.whole main_v35) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S6x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v45) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S64x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v46) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v47) S8000x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S3x64 : Shape := ⟨2, ![3, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S6x64 : Shape := ⟨2, ![6, 64]⟩
abbrev S64x1 : Shape := ⟨2, ![64, 1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S1600000x32 : Shape := ⟨2, ![1600000, 32]⟩
abbrev S1x32 : Shape := ⟨2, ![1, 32]⟩
abbrev S1x1 : Shape := ⟨2, ![1, 1]⟩
abbrev S1600000x6 : Shape := ⟨2, ![1600000, 6]⟩

abbrev nBuf : Space → Nat
  | .hbm => 131
  | .vmem => 0
  | .smem => 0
  | _ => 0

abbrev hbmTy0_0 (i : Nat) : BufTy := match i % 128 with
  | 0 => ⟨S100000x3, .f32⟩
  | 1 => ⟨S2x1600000, .i32⟩
  | 2 => ⟨S3x64, .f32⟩
  | 3 => ⟨S3x64, .f32⟩
  | 4 => ⟨S64, .f32⟩
  | 5 => ⟨S64x32, .f32⟩
  | 6 => ⟨S32, .f32⟩
  | 7 => ⟨S32x1, .f32⟩
  | 8 => ⟨S1, .f32⟩
  | 9 => ⟨S6x64, .f32⟩
  | 10 => ⟨S64, .f32⟩
  | 11 => ⟨S64x1, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x3, .f32⟩
  | 26 => ⟨S_, .f32⟩
  | 27 => ⟨S100000x3, .f32⟩
  | 28 => ⟨S1600000x1, .i32⟩
  | 29 => ⟨S100000x3, .f32⟩
  | 30 => ⟨S_, .f32⟩
  | 31 => ⟨S1600000x1, .f32⟩
  | 32 => ⟨S_, .f32⟩
  | 33 => ⟨S100000x1, .f32⟩
  | 34 => ⟨S1600000x1, .i32⟩
  | 35 => ⟨S100000x1, .f32⟩
  | 36 => ⟨S_, .f32⟩
  | 37 => ⟨S100000x1, .f32⟩
  | 38 => ⟨S100000x1, .f32⟩
  | 39 => ⟨S100000x3, .f32⟩
  | 40 => ⟨S100000x3, .f32⟩
  | 41 => ⟨S100000x64, .f32⟩
  | 42 => ⟨S100000x64, .f32⟩
  | 43 => ⟨S100000x64, .f32⟩
  | 44 => ⟨S1x64, .f32⟩
  | 45 => ⟨S100000x64, .f32⟩
  | 46 => ⟨S100000x64, .f32⟩
  | 47 => ⟨S_, .f32⟩
  | 48 => ⟨S100000x64, .f32⟩
  | 49 => ⟨S100000x64, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x64, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x64, .f32⟩
  | 68 => ⟨S1600000x64, .f32⟩
  | 69 => ⟨S1600000x1, .f32⟩
  | 70 => ⟨S1600000, .f32⟩
  | 71 => ⟨S1600000x1, .f32⟩
  | 72 => ⟨S1600000, .f32⟩
  | 73 => ⟨S1600000x1, .f32⟩
  | 74 => ⟨S1600000, .f32⟩
  | 75 => ⟨S1600000, .f32⟩
  | 76 => ⟨S1600000, .f32⟩
  | 77 => ⟨S1600000, .f32⟩
  | 78 => ⟨S1600000, .f32⟩
  | 79 => ⟨S1600000x32, .f32⟩
  | 80 => ⟨S1x32, .f32⟩
  | 81 => ⟨S1600000x32, .f32⟩
  | 82 => ⟨S1600000x32, .f32⟩
  | 83 => ⟨S_, .f32⟩
  | 84 => ⟨S1600000x32, .f32⟩
  | 85 => ⟨S1600000x32, .f32⟩
  | 86 => ⟨S1600000x1, .f32⟩
  | 87 => ⟨S1x1, .f32⟩
  | 88 => ⟨S1600000x1, .f32⟩
  | 89 => ⟨S1600000x1, .f32⟩
  | 90 => ⟨S1600000, .f32⟩
  | 91 => ⟨S1600000, .f32⟩
  | 92 => ⟨S1600000, .f32⟩
  | 93 => ⟨S1600000, .f32⟩
  | 94 => ⟨S1600000, .f32⟩
  | 95 => ⟨S_, .f32⟩
  | 96 => ⟨S1600000, .f32⟩
  | 97 => ⟨S1600000, .i1⟩
  | 98 => ⟨S_, .f32⟩
  | 99 => ⟨S_, .f32⟩
  | 100 => ⟨S1600000, .f32⟩
  | 101 => ⟨S1600000, .f32⟩
  | 102 => ⟨S1600000, .f32⟩
  | 103 => ⟨S1600000, .f32⟩
  | 104 => ⟨S1600000x1, .f32⟩
  | 105 => ⟨S1600000x1, .f32⟩
  | 106 => ⟨S1600000x1, .f32⟩
  | 107 => ⟨S1600000x1, .f32⟩
  | 108 => ⟨S1600000x1, .f32⟩
  | 109 => ⟨S1600000x1, .f32⟩
  | 110 => ⟨S1600000x6, .f32⟩
  | 111 => ⟨S1600000x64, .f32⟩
  | 112 => ⟨S1x64, .f32⟩
  | 113 => ⟨S1600000x64, .f32⟩
  | 114 => ⟨S1600000x64, .f32⟩
  | 115 => ⟨S_, .f32⟩
  | 116 => ⟨S1600000x64, .f32⟩
  | 117 => ⟨S1600000x64, .f32⟩
  | 118 => ⟨S1600000x1, .f32⟩
  | 119 => ⟨S1x1, .f32⟩
  | 120 => ⟨S1600000x1, .f32⟩
  | 121 => ⟨S1600000x1, .f32⟩
  | 122 => ⟨S1600000, .f32⟩
  | 123 => ⟨S1600000, .f32⟩
  | 124 => ⟨S1600000, .f32⟩
  | 125 => ⟨S_, .f32⟩
  | 126 => ⟨S1600000, .f32⟩
  | 127 => ⟨S1600000, .f32⟩
  | _ => ⟨S100000x3, .f32⟩

abbrev hbmTy0_1 (i : Nat) : BufTy := match i % 128 with
  | 0 => ⟨S_, .f32⟩
  | 1 => ⟨S1600000, .f32⟩
  | 2 => ⟨S1600000, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call0_cst : Ref sig .tc := ⟨.hbm, 47, rfl⟩
abbrev main_call0_v0 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_c_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_call1_cst : Ref sig .tc := ⟨.hbm, 83, rfl⟩
abbrev main_call1_v0 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_8 : Ref sig .tc := ⟨.hbm, 95, rfl⟩
abbrev main_v68 : Ref sig .tc := ⟨.hbm, 96, rfl⟩
abbrev main_v69 : Ref sig .tc := ⟨.hbm, 97, rfl⟩
abbrev main_cst_9 : Ref sig .tc := ⟨.hbm, 98, rfl⟩
abbrev main_cst_10 : Ref sig .tc := ⟨.hbm, 99, rfl⟩
abbrev main_call2_v0 : Ref sig .tc := ⟨.hbm, 100, rfl⟩
abbrev main_call2_v1 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_call3_cst : Ref sig .tc := ⟨.hbm, 115, rfl⟩
abbrev main_call3_v0 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_11 : Ref sig .tc := ⟨.hbm, 125, rfl⟩
abbrev main_v91 : Ref sig .tc := ⟨.hbm, 126, rfl⟩
abbrev main_v92 : Ref sig .tc := ⟨.hbm, 127, rfl⟩
abbrev main_cst_12 : Ref sig .tc := ⟨.hbm, 128, rfl⟩
abbrev main_v93 : Ref sig .tc := ⟨.hbm, 129, rfl⟩
abbrev main_v94 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x3 : S_.BroadcastsInDim S100000x3 (![] : Fin 0 → Fin S100000x3.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x3_0_1 : S100000x1.BroadcastsInDim S100000x3 (![0, 1] : Fin 2 → Fin S100000x3.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S1600000x64_S1600000x1_0_0 : S1600000x64.Slices ![0, 0] S1600000x1
  shapeCasts_S1600000x1_S1600000 : S1600000x1.ShapeCasts S1600000
  slices_S1600000x64_S1600000x1_0_1 : S1600000x64.Slices ![0, 1] S1600000x1
  slices_S1600000x64_S1600000x1_0_2 : S1600000x64.Slices ![0, 2] S1600000x1
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  concatenates_S1600000x1_S1600000x1_S1600000x1_S1600000x1_S1600000x1_S1600000x1_S1600000x6_d1 : Shape.Concatenates [S1600000x1, S1600000x1, S1600000x1, S1600000x1, S1600000x1, S1600000x1] S1600000x6 1
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  gather_S100000x3_S1600000x1_S1600000x3_1_0_n_n_0_1_13_wf : GatherDims.WF S100000x3 S1600000x1 S1600000x3 [1] [0] [] [0] [] 1 ![1, 3]
  scatter_S100000x3_S1600000x1_S1600000x3_1_0_0_1_wf : ScatterDims.WF S100000x3 S1600000x1 S1600000x3 [1] [0] [0] 1
  scatter_S100000x1_S1600000x1_S1600000x1_1_0_0_1_wf : ScatterDims.WF S100000x1 S1600000x1 S1600000x1 [1] [0] [0] 1
  dot_S100000x3_S3x64_S100000x64_1_0_0_1_n_n_wf : DotDims.WF S100000x3 S3x64 S100000x64 [1] [0] [0] [1] [] []
  gather_S100000x64_S1600000x1_S1600000x64_1_0_n_n_0_1_164_wf : GatherDims.WF S100000x64 S1600000x1 S1600000x64 [1] [0] [] [0] [] 1 ![1, 64]
  dot_S1600000x64_S64x32_S1600000x32_1_0_0_1_n_n_wf : DotDims.WF S1600000x64 S64x32 S1600000x32 [1] [0] [0] [1] [] []
  dot_S1600000x32_S32x1_S1600000x1_1_0_0_1_n_n_wf : DotDims.WF S1600000x32 S32x1 S1600000x1 [1] [0] [0] [1] [] []
  dot_S1600000x6_S6x64_S1600000x64_1_0_0_1_n_n_wf : DotDims.WF S1600000x6 S6x64 S1600000x64 [1] [0] [0] [1] [] []
  dot_S1600000x64_S64x1_S1600000x1_1_0_0_1_n_n_wf : DotDims.WF S1600000x64 S64x1 S1600000x1 [1] [0] [0] [1] [] []

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x32_S1600000x32_1_0_0_1_n_n : DotDims S1600000x64 S64x32 S1600000x32 where
  lhsContracting := [1]
  rhsContracting := [0]
  lhsNonContracting := [0]
  rhsNonContracting := [1]
  lhsBatch := []
  rhsBatch := []
  wf := dot_S1600000x64_S64x32_S1600000x32_1_0_0_1_n_n_wf
def dot_S1600000x32_S32x1_S1600000x1_1_0_0_1_n_n : DotDims S1600000x32 S32x1 S1600000x1 where
  lhsContracting := [1]
  rhsContracting := [0]
  lhsNonContracting := [0]
  rhsNonContracting := [1]
  lhsBatch := []
  rhsBatch := []
  wf := dot_S1600000x32_S32x1_S1600000x1_1_0_0_1_n_n_wf
def dot_S1600000x6_S6x64_S1600000x64_1_0_0_1_n_n : DotDims S1600000x6 S6x64 S1600000x64 where
  lhsContracting := [1]
  rhsContracting := [0]
  lhsNonContracting := [0]
  rhsNonContracting := [1]
  lhsBatch := []
  rhsBatch := []
  wf := dot_S1600000x6_S6x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf

class Facts : Prop extends Facts₀ where

variable [Facts]
-- ==== Proof.EdgeSpec.lean ====
/-
  THE PER-EDGE SCORE, as one function of two embedding rows and the eight weight arrays.

  For an edge with source row  a  and destination row  b  (64 entries each) let  d = b - a,  and
    dt = d 0,  dx = d 1,  dy = d 2,   r2 = dx*dx + dy*dy,
    phi = (sum_k max ((sum_j a j * Wp1 j k) + bp1 k) 0 * Wp2 k) + bp2        (a 64 -> 32 -> 1 perceptron of the source row),
    s2  = (-phi) * (dt*dt) + r2                                               (the interval),
    tl  = 1 if s2 < 0 else 0                                                  (time-like flag),
    f   = (dx, dy, dt, s2, sqrt r2, tl)                                       (six features),
    score = logistic ((sum_k max ((sum_j f j * We1 j k) + be1 k) 0 * We2 k) + be2).
  Everything is on the extended reals; the sums are finite sums in the order of the index type, the six-term sum over
  the features is written out.  Both programs compute this number for every edge: the kernel on [8000, .] blocks
  of rows with [., 1] columns, the reference on whole [1600000] vectors.

-/
import Idealize.ShloMosaic.Lib.ValueIdx
import Idealize.ShloMosaic.PureOps.Ideal.Laws

noncomputable section

open scoped BigOperators

namespace Cert.EdgeSpec

open Idealize.ShloMosaic Idealize.ShloMosaic.ValueIdx

/-- Entry `c` of the difference of the two rows. -/
def dcol (a b : Fin 64 → EReal) (c : Fin 64) : EReal := b c - a c

/-- The squared spatial length  dx*dx + dy*dy. -/
def r2 (a b : Fin 64 → EReal) : EReal := dcol a b 1 * dcol a b 1 + dcol a b 2 * dcol a b 2

/-- Hidden unit `k` of the source row's perceptron: max (a . Wp1[:,k] + bp1 k) 0. -/
def hid (a : Fin 64 → EReal) (wp1 : Fin 64 → Fin 32 → EReal) (bp1 : Fin 32 → EReal) (k : Fin 32) : EReal :=
  max ((∑ j : Fin 64, a j * wp1 j k) + bp1 k) 0

/-- The source row's potential. -/
def phi (a : Fin 64 → EReal) (wp1 : Fin 64 → Fin 32 → EReal) (bp1 : Fin 32 → EReal) (wp2 : Fin 32 → EReal) (bp2 : EReal) : EReal :=
  (∑ k : Fin 32, hid a wp1 bp1 k * wp2 k) + bp2

/-- The interval  (-phi) * dt*dt + r2. -/
def s2 (a b : Fin 64 → EReal) (wp1 : Fin 64 → Fin 32 → EReal) (bp1 : Fin 32 → EReal) (wp2 : Fin 32 → EReal) (bp2 : EReal) : EReal :=
  (-(phi a wp1 bp1 wp2 bp2)) * (dcol a b 0 * dcol a b 0) + r2 a b

/-- The time-like flag: 1 where the interval is negative, else 0. -/
def tl (a b : Fin 64 → EReal) (wp1 : Fin 64 → Fin 32 → EReal) (bp1 : Fin 32 → EReal) (wp2 : Fin 32 → EReal) (bp2 : EReal) : EReal :=
  Scalar.select (FloatOps.cmpf (F := Ideal) (φ := .f32) .olt (s2 a b wp1 bp1 wp2 bp2) (0 : EReal)) (1 : EReal) (0 : EReal)

/-- Hidden unit `k` of the edge predictor on the six features. -/
def hid2 (a b : Fin 64 → EReal) (wp1 : Fin 64 → Fin 32 → EReal) (bp1 : Fin 32 → EReal) (wp2 : Fin 32 → EReal) (bp2 : EReal)
    (we1 : Fin 6 → Fin 64 → EReal) (be1 : Fin 64 → EReal) (k : Fin 64) : EReal :=
  max ((dcol a b 1 * we1 0 k + dcol a b 2 * we1 1 k + dcol a b 0 * we1 2 k + s2 a b wp1 bp1 wp2 bp2 * we1 3 k
        + Ideal.sqrt (r2 a b) * we1 4 k + tl a b wp1 bp1 wp2 bp2 * we1 5 k) + be1 k) 0

/-- The edge's score. -/
def score (a b : Fin 64 → EReal) (wp1 : Fin 64 → Fin 32 → EReal) (bp1 : Fin 32 → EReal) (wp2 : Fin 32 → EReal) (bp2 : EReal)
    (we1 : Fin 6 → Fin 64 → EReal) (be1 : Fin 64 → EReal) (we2 : Fin 64 → EReal) (be2 : EReal) : EReal :=
  Ideal.logistic ((∑ k : Fin 64, hid2 a b wp1 bp1 wp2 bp2 we1 be1 k * we2 k) + be2)

end Cert.EdgeSpec

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibEdgeLayers.lean ====
/-
  DENSE LAYERS ON ROWS AND [A,1] COLUMNS, READ AT AN INDEX — generic in every extent.

  Reading a rank-2 array by rows, as a matrix, or a [1,B] / [K,1] / [B] / [1,1] array as a vector or a number:
    `rowAt`, `mat`, `rowv`, `colv`, `vec1`, `entry11`.
  Layout operations at (r, c):
  * `six_columns_apply`  — six [A,1] columns laid side by side along axis 1, read at (r, k): column k at (r, 0);
  * `column_slice_apply` — column c of an [A,B] array cut out as an [A,1] column, read at (r, 0);
  * `row_spread_apply`   — a [1,B] row spread over [A,B], read at (r, k): the row at (0, k), for every B (B = 1 included);
  * `vector_as_row`, `vector_as_entry`, `column_as_vector` — a [B] vector re-laid as a [1,B] row, a [1] vector as a [1,1]
    array, an [A,1] column as an [A] vector.
  Products on the extended reals at (r, c), for any dimension-number record whose six lists are the plain product's:
  * `product_at`       — [A,K]·[K,B] accumulated into zeros: sum_k l(r,k)·w(k,c);
  * `affine_at`        — the same with both operands passed through a narrowing format change first (the identity on the
                          extended reals) plus a [1,B] bias row re-laid to its own shape and spread over the rows;
  * `relu_at`          — that, then the maximum with a splat zero;
  * `six_term_product`, `relu_six_at` — the product, and the rectified affine layer, on six [A,1] columns laid side by side:
                          the six-term sum p0(r,0)·w(0,c) + … + p5(r,0)·w(5,c).

  Nothing here depends on a program.
-/
import Idealize.ShloMosaic.Lib.ValueIdx
import Idealize.ShloMosaic.Lib.Pipeline.Value
import Idealize.ShloMosaic.PureOps.Ideal.Laws
import proofs.«108433_j89464168775877_1_alg».proof.Proof.LibPlainDot

noncomputable section

open scoped BigOperators

namespace Cert.Lib.EdgeLayers

open Idealize.ShloMosaic Idealize.ShloMosaic.ValueIdx

/-! ## Reading rows, matrices and vectors out of rank-2 arrays -/

/-- Row `r` of an [A,B] array. -/
def rowAt {A B : Nat} (x : (⟨2, ![A, B]⟩ : Shape).Idx → EReal) (r : Fin A) : Fin B → EReal := fun j => x (ix2 r j)
/-- A [K,B] array as a matrix. -/
def mat {K B : Nat} (x : (⟨2, ![K, B]⟩ : Shape).Idx → EReal) : Fin K → Fin B → EReal := fun j k => x (ix2 j k)
/-- A [1,B] array as a vector. -/
def rowv {B : Nat} (x : (⟨2, ![1, B]⟩ : Shape).Idx → EReal) : Fin B → EReal := fun k => x (ix2 0 k)
/-- A [K,1] array as a vector. -/
def colv {K : Nat} (x : (⟨2, ![K, 1]⟩ : Shape).Idx → EReal) : Fin K → EReal := fun k => x (ix2 k 0)
/-- A [B] array as a vector. -/
def vec1 {B : Nat} (x : (⟨1, ![B]⟩ : Shape).Idx → EReal) : Fin B → EReal := fun k => x (ix1 k)
/-- The entry of a [1,1] array. -/
def entry11 (x : (⟨2, ![1, 1]⟩ : Shape).Idx → EReal) : EReal := x (ix2 0 0)

/-! ## Six columns side by side -/

section Columns
variable {A : Nat} {α : Type}

/-- Six [A,1] columns laid side by side along axis 1, read at (r, k): column `k` at (r, 0). -/
theorem six_columns_apply (p0 p1 p2 p3 p4 p5 : (⟨2, ![A, 1]⟩ : Shape).Idx → α)
    (h : Shape.Concatenates ([⟨⟨2, ![A, 1]⟩, p0⟩, ⟨⟨2, ![A, 1]⟩, p1⟩, ⟨⟨2, ![A, 1]⟩, p2⟩, ⟨⟨2, ![A, 1]⟩, p3⟩, ⟨⟨2, ![A, 1]⟩, p4⟩,
      (⟨⟨2, ![A, 1]⟩, p5⟩ : (s : Shape) × (s.Idx → α))].map (·.1)) ⟨2, ![A, 6]⟩ 1) (r : Fin A) :
    (concatenate ⟨2, ![A, 6]⟩ 1 [⟨⟨2, ![A, 1]⟩, p0⟩, ⟨⟨2, ![A, 1]⟩, p1⟩, ⟨⟨2, ![A, 1]⟩, p2⟩, ⟨⟨2, ![A, 1]⟩, p3⟩, ⟨⟨2, ![A, 1]⟩, p4⟩, ⟨⟨2, ![A, 1]⟩, p5⟩] h (ix2 r (0 : Fin 6)) = p0 (ix2 r 0))
    ∧ (concatenate ⟨2, ![A, 6]⟩ 1 [⟨⟨2, ![A, 1]⟩, p0⟩, ⟨⟨2, ![A, 1]⟩, p1⟩, ⟨⟨2, ![A, 1]⟩, p2⟩, ⟨⟨2, ![A, 1]⟩, p3⟩, ⟨⟨2, ![A, 1]⟩, p4⟩, ⟨⟨2, ![A, 1]⟩, p5⟩] h (ix2 r (1 : Fin 6)) = p1 (ix2 r 0))
    ∧ (concatenate ⟨2, ![A, 6]⟩ 1 [⟨⟨2, ![A, 1]⟩, p0⟩, ⟨⟨2, ![A, 1]⟩, p1⟩, ⟨⟨2, ![A, 1]⟩, p2⟩, ⟨⟨2, ![A, 1]⟩, p3⟩, ⟨⟨2, ![A, 1]⟩, p4⟩, ⟨⟨2, ![A, 1]⟩, p5⟩] h (ix2 r (2 : Fin 6)) = p2 (ix2 r 0))
    ∧ (concatenate ⟨2, ![A, 6]⟩ 1 [⟨⟨2, ![A, 1]⟩, p0⟩, ⟨⟨2, ![A, 1]⟩, p1⟩, ⟨⟨2, ![A, 1]⟩, p2⟩, ⟨⟨2, ![A, 1]⟩, p3⟩, ⟨⟨2, ![A, 1]⟩, p4⟩, ⟨⟨2, ![A, 1]⟩, p5⟩] h (ix2 r (3 : Fin 6)) = p3 (ix2 r 0))
    ∧ (concatenate ⟨2, ![A, 6]⟩ 1 [⟨⟨2, ![A, 1]⟩, p0⟩, ⟨⟨2, ![A, 1]⟩, p1⟩, ⟨⟨2, ![A, 1]⟩, p2⟩, ⟨⟨2, ![A, 1]⟩, p3⟩, ⟨⟨2, ![A, 1]⟩, p4⟩, ⟨⟨2, ![A, 1]⟩, p5⟩] h (ix2 r (4 : Fin 6)) = p4 (ix2 r 0))
    ∧ (concatenate ⟨2, ![A, 6]⟩ 1 [⟨⟨2, ![A, 1]⟩, p0⟩, ⟨⟨2, ![A, 1]⟩, p1⟩, ⟨⟨2, ![A, 1]⟩, p2⟩, ⟨⟨2, ![A, 1]⟩, p3⟩, ⟨⟨2, ![A, 1]⟩, p4⟩, ⟨⟨2, ![A, 1]⟩, p5⟩] h (ix2 r (5 : Fin 6)) = p5 (ix2 r 0)) := by
  refine ⟨?_, ?_, ?_, ?_, ?_, ?_⟩
  · exact concatenate_apply_piece 1 _ h _ 0 (by simp only [List.length_cons, List.length_nil]; omega) _ p0 rfl rfl 0 rfl (ix2 r 0)
      (fun b hb => by match b with | ⟨0, _⟩ => rfl | ⟨1, _⟩ => exact absurd rfl hb) rfl
  · exact concatenate_apply_piece 1 _ h _ 1 (by simp only [List.length_cons, List.length_nil]; omega) _ p1 rfl rfl 1 rfl (ix2 r 0)
      (fun b hb => by match b with | ⟨0, _⟩ => rfl | ⟨1, _⟩ => exact absurd rfl hb) rfl
  · exact concatenate_apply_piece 1 _ h _ 2 (by simp only [List.length_cons, List.length_nil]; omega) _ p2 rfl rfl 2 rfl (ix2 r 0)
      (fun b hb => by match b with | ⟨0, _⟩ => rfl | ⟨1, _⟩ => exact absurd rfl hb) rfl
  · exact concatenate_apply_piece 1 _ h _ 3 (by simp only [List.length_cons, List.length_nil]; omega) _ p3 rfl rfl 3 rfl (ix2 r 0)
      (fun b hb => by match b with | ⟨0, _⟩ => rfl | ⟨1, _⟩ => exact absurd rfl hb) rfl
  · exact concatenate_apply_piece 1 _ h _ 4 (by simp only [List.length_cons, List.length_nil]; omega) _ p4 rfl rfl 4 rfl (ix2 r 0)
      (fun b hb => by match b with | ⟨0, _⟩ => rfl | ⟨1, _⟩ => exact absurd rfl hb) rfl
  · exact concatenate_apply_piece 1 _ h _ 5 (by simp only [List.length_cons, List.length_nil]; omega) _ p5 rfl rfl 5 rfl (ix2 r 0)
      (fun b hb => by match b with | ⟨0, _⟩ => rfl | ⟨1, _⟩ => exact absurd rfl hb) rfl

end Columns

section Layout
variable {A B : Nat} {α : Type}

/-- Column `c` of an [A,B] array cut out as an [A,1] column, read at (r,0). -/
theorem column_slice_apply (c : Nat) (hc : c < B) (x : (⟨2, ![A, B]⟩ : Shape).Idx → α)
    (h : (⟨2, ![A, B]⟩ : Shape).Slices ![0, c] ⟨2, ![A, 1]⟩) (r : Fin A) :
    extractStridedSlice ⟨2, ![A, 1]⟩ ![0, c] x h (ix2 r (0 : Fin 1)) = x (ix2 r ⟨c, hc⟩) :=
  extractStridedSlice_apply ![0, c] x h _ _ (fun a => by
    match a with
    | ⟨0, _⟩ => show r.val = 0 + r.val; omega
    | ⟨1, _⟩ => show c = c + 0; omega)

/-- A [1,B] row spread over [A,B], read at (r,k): the row at (0,k). -/
theorem row_spread_apply (x : (⟨2, ![1, B]⟩ : Shape).Idx → α) (h : (⟨2, ![1, B]⟩ : Shape).Broadcasts ⟨2, ![A, B]⟩)
    (r : Fin A) (k : Fin B) :
    broadcastTo ⟨2, ![A, B]⟩ x h (ix2 r k) = x (ix2 (0 : Fin 1) k) :=
  broadcastTo_apply x h _ _ (fun a => by
    match a with
    | ⟨0, _⟩ => show (0 : Nat) = if (1 : Nat) = 1 then 0 else _; rw [if_pos rfl]
    | ⟨1, _⟩ =>
      show k.val = if B = 1 then 0 else k.val
      split
      · have := k.isLt; omega
      · rfl)

end Layout

section Recast

/-- A vector of length B re-laid as a [1,B] row: entry (0,k) is entry k. -/
theorem vector_as_row {B : Nat} (x : (⟨1, ![B]⟩ : Shape).Idx → EReal) (h : (⟨1, ![B]⟩ : Shape).ShapeCasts ⟨2, ![1, B]⟩) :
    rowv (shapeCast ⟨2, ![1, B]⟩ x h) = vec1 x := by
  funext k
  exact shapeCast_apply x h (ix2 0 k) (ix1 k) (by
    rewrite [Shape.rowMajor_val_one, Shape.rowMajor_val_two]
    show k.val = 0 * B + k.val
    omega)

/-- A vector of length 1 re-laid as a [1,1] array: its entry is the vector's. -/
theorem vector_as_entry (x : (⟨1, ![1]⟩ : Shape).Idx → EReal) (h : (⟨1, ![1]⟩ : Shape).ShapeCasts ⟨2, ![1, 1]⟩) :
    entry11 (shapeCast ⟨2, ![1, 1]⟩ x h) = x (ix1 0) :=
  congrFun (vector_as_row x h) 0

/-- An [A,1] column re-laid as a vector of length A: entry r is entry (r,0). -/
theorem column_as_vector {A : Nat} {α : Type} (x : (⟨2, ![A, 1]⟩ : Shape).Idx → α) (h : (⟨2, ![A, 1]⟩ : Shape).ShapeCasts ⟨1, ![A]⟩)
    (r : Fin A) : shapeCast ⟨1, ![A]⟩ x h (ix1 r) = x (ix2 r 0) :=
  shapeCast_apply x h (ix1 r) (ix2 r 0) (by
    rewrite [Shape.rowMajor_val_two, Shape.rowMajor_val_one]
    show r.val * 1 + 0 = r.val
    omega)

end Recast

section Product
variable {A K B : Nat}

/-- A product [A,K]·[K,B] accumulated into zeros, read at (r,c). -/
theorem product_at {φ₁ φ₂ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![A, K]⟩ φ₁) (r : FVec Ideal ⟨2, ![K, B]⟩ φ₂) (y : Fin A) (c : Fin B) :
    matmul d prec l r (constant ⟨2, ![A, B]⟩ .f32 0x00000000#32) (ix2 y c) = ∑ k : Fin K, l (ix2 y k) * r (ix2 k c) := by
  rw [Cert.Lib.PlainDot.eq_plain d h1 h2 h3 h4 h5 h6]
  exact Cert.Lib.PlainDot.matmul_zero_plain_apply prec l r (ix2 y c)

/-- The product of six [A,1] columns side by side with a [6,B] matrix, read at (r,c): the six-term sum. -/
theorem six_term_product {φ₁ φ₂ : FTy} (d : DotDims ⟨2, ![A, 6]⟩ ⟨2, ![6, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (p0 p1 p2 p3 p4 p5 : FVec Ideal ⟨2, ![A, 1]⟩ φ₁)
    (h : Shape.Concatenates ([⟨⟨2, ![A, 1]⟩, p0⟩, ⟨⟨2, ![A, 1]⟩, p1⟩, ⟨⟨2, ![A, 1]⟩, p2⟩, ⟨⟨2, ![A, 1]⟩, p3⟩, ⟨⟨2, ![A, 1]⟩, p4⟩,
      (⟨⟨2, ![A, 1]⟩, p5⟩ : (s : Shape) × (s.Idx → Ideal φ₁))].map (·.1)) ⟨2, ![A, 6]⟩ 1)
    (w : FVec Ideal ⟨2, ![6, B]⟩ φ₂) (y : Fin A) (c : Fin B) :
    matmul d prec (concatenate ⟨2, ![A, 6]⟩ 1 [⟨⟨2, ![A, 1]⟩, p0⟩, ⟨⟨2, ![A, 1]⟩, p1⟩, ⟨⟨2, ![A, 1]⟩, p2⟩, ⟨⟨2, ![A, 1]⟩, p3⟩, ⟨⟨2, ![A, 1]⟩, p4⟩, ⟨⟨2, ![A, 1]⟩, p5⟩] h)
        w (constant ⟨2, ![A, B]⟩ .f32 0x00000000#32) (ix2 y c)
      = p0 (ix2 y 0) * w (ix2 0 c) + p1 (ix2 y 0) * w (ix2 1 c) + p2 (ix2 y 0) * w (ix2 2 c) + p3 (ix2 y 0) * w (ix2 3 c)
        + p4 (ix2 y 0) * w (ix2 4 c) + p5 (ix2 y 0) * w (ix2 5 c) := by
  obtain ⟨e0, e1, e2, e3, e4, e5⟩ := six_columns_apply p0 p1 p2 p3 p4 p5 h y
  rw [product_at d h1 h2 h3 h4 h5 h6, Fin.sum_univ_six, e0, e1, e2, e3, e4, e5]

/-- The same product with both operands passed through a narrowing format change first (the identity on the extended
    reals), plus a [1,B] bias row spread over the rows: the affine layer at (r,c). -/
theorem affine_at {φ₁ φ₂ ψ₁ ψ₂ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![A, K]⟩ φ₁) (hl : ψ₁.bits < φ₁.bits)
    (w : FVec Ideal ⟨2, ![K, B]⟩ φ₂) (hw : ψ₂.bits < φ₂.bits)
    (b : FVec Ideal ⟨2, ![1, B]⟩ .f32) (hs : (⟨2, ![1, B]⟩ : Shape).ShapeCasts ⟨2, ![1, B]⟩)
    (hb : (⟨2, ![1, B]⟩ : Shape).Broadcasts ⟨2, ![A, B]⟩) (y : Fin A) (c : Fin B) :
    addf (matmul d prec (truncf ψ₁ l hl) (truncf ψ₂ w hw) (constant ⟨2, ![A, B]⟩ .f32 0x00000000#32))
        (broadcastTo ⟨2, ![A, B]⟩ (shapeCast ⟨2, ![1, B]⟩ b hs) hb) (ix2 y c)
      = (∑ k : Fin K, l (ix2 y k) * w (ix2 k c)) + b (ix2 0 c) := by
  show matmul d prec (truncf ψ₁ l hl) (truncf ψ₂ w hw) (constant ⟨2, ![A, B]⟩ .f32 0x00000000#32) (ix2 y c)
      + broadcastTo ⟨2, ![A, B]⟩ (shapeCast ⟨2, ![1, B]⟩ b hs) hb (ix2 y c) = _
  rw [product_at d h1 h2 h3 h4 h5 h6, row_spread_apply, shapeCast_self]
  rfl

/-- The rectified affine layer at (r,c): the maximum with a splat zero. -/
theorem relu_at {φ₁ φ₂ ψ₁ ψ₂ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![A, K]⟩ φ₁) (hl : ψ₁.bits < φ₁.bits)
    (w : FVec Ideal ⟨2, ![K, B]⟩ φ₂) (hw : ψ₂.bits < φ₂.bits)
    (b : FVec Ideal ⟨2, ![1, B]⟩ .f32) (hs : (⟨2, ![1, B]⟩ : Shape).ShapeCasts ⟨2, ![1, B]⟩)
    (hb : (⟨2, ![1, B]⟩ : Shape).Broadcasts ⟨2, ![A, B]⟩) (y : Fin A) (c : Fin B) :
    maximumf (addf (matmul d prec (truncf ψ₁ l hl) (truncf ψ₂ w hw) (constant ⟨2, ![A, B]⟩ .f32 0x00000000#32))
        (broadcastTo ⟨2, ![A, B]⟩ (shapeCast ⟨2, ![1, B]⟩ b hs) hb))
        (broadcast ⟨2, ![A, B]⟩ (Scalar.ofBits (F := Ideal) .f32 0x00000000#32)) (ix2 y c)
      = max ((∑ k : Fin K, l (ix2 y k) * w (ix2 k c)) + b (ix2 0 c)) 0 := by
  show max (addf (matmul d prec (truncf ψ₁ l hl) (truncf ψ₂ w hw) (constant ⟨2, ![A, B]⟩ .f32 0x00000000#32))
        (broadcastTo ⟨2, ![A, B]⟩ (shapeCast ⟨2, ![1, B]⟩ b hs) hb) (ix2 y c)) (Ideal.ofBits .f32 0x00000000#32) = _
  rw [affine_at d h1 h2 h3 h4 h5 h6, Ideal.ofBits_zero_f32]

/-- The rectified affine layer on six [A,1] columns side by side, at (r,c): the six-term sum, the bias, the maximum with zero. -/
theorem relu_six_at {φ₂ ψ₁ ψ₂ : FTy} (d : DotDims ⟨2, ![A, 6]⟩ ⟨2, ![6, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (p0 p1 p2 p3 p4 p5 : FVec Ideal ⟨2, ![A, 1]⟩ .f32)
    (h : Shape.Concatenates ([⟨⟨2, ![A, 1]⟩, p0⟩, ⟨⟨2, ![A, 1]⟩, p1⟩, ⟨⟨2, ![A, 1]⟩, p2⟩, ⟨⟨2, ![A, 1]⟩, p3⟩, ⟨⟨2, ![A, 1]⟩, p4⟩,
      (⟨⟨2, ![A, 1]⟩, p5⟩ : (s : Shape) × (s.Idx → Ideal .f32))].map (·.1)) ⟨2, ![A, 6]⟩ 1)
    (hl : ψ₁.bits < FTy.f32.bits)
    (w : FVec Ideal ⟨2, ![6, B]⟩ φ₂) (hw : ψ₂.bits < φ₂.bits)
    (b : FVec Ideal ⟨2, ![1, B]⟩ .f32) (hs : (⟨2, ![1, B]⟩ : Shape).ShapeCasts ⟨2, ![1, B]⟩)
    (hb : (⟨2, ![1, B]⟩ : Shape).Broadcasts ⟨2, ![A, B]⟩) (y : Fin A) (c : Fin B) :
    maximumf (addf (matmul d prec (truncf ψ₁ (concatenate ⟨2, ![A, 6]⟩ 1 [⟨⟨2, ![A, 1]⟩, p0⟩, ⟨⟨2, ![A, 1]⟩, p1⟩, ⟨⟨2, ![A, 1]⟩, p2⟩, ⟨⟨2, ![A, 1]⟩, p3⟩, ⟨⟨2, ![A, 1]⟩, p4⟩, ⟨⟨2, ![A, 1]⟩, p5⟩] h) hl)
          (truncf ψ₂ w hw) (constant ⟨2, ![A, B]⟩ .f32 0x00000000#32))
        (broadcastTo ⟨2, ![A, B]⟩ (shapeCast ⟨2, ![1, B]⟩ b hs) hb))
        (broadcast ⟨2, ![A, B]⟩ (Scalar.ofBits (F := Ideal) .f32 0x00000000#32)) (ix2 y c)
      = max ((p0 (ix2 y 0) * w (ix2 0 c) + p1 (ix2 y 0) * w (ix2 1 c) + p2 (ix2 y 0) * w (ix2 2 c) + p3 (ix2 y 0) * w (ix2 3 c)
        + p4 (ix2 y 0) * w (ix2 4 c) + p5 (ix2 y 0) * w (ix2 5 c)) + b (ix2 0 c)) 0 := by
  obtain ⟨e0, e1, e2, e3, e4, e5⟩ := six_columns_apply p0 p1 p2 p3 p4 p5 h y
  rw [relu_at d h1 h2 h3 h4 h5 h6, Fin.sum_univ_six, e0, e1, e2, e3, e4, e5]

end Product

end Cert.Lib.EdgeLayers

end
-- ==== Proof.EdgeBody.lean ====
/-
  THE KERNEL BODY'S BLOCK, entry by entry.

  On one block of 8000 edges the body loads the block of source rows  x0  and of destination rows  x1
  ([8000,64] each) and the eight weight arrays whole, and stores one [8000,1] column.  Entry (y,0) of that column
  is the score (Cert.EdgeSpec.score) of row y of x0, row y of x1 and the weights: the differences' columns 0, 1, 2
  are dt, dx, dy; two products with a bias row and a maximum with zero make the source row's potential; the six
  feature columns laid side by side and two more such layers make the logit; the logistic function is applied last.
  The narrowing format changes before each product are the identity on the extended reals.
-/
import proofs.«108433_j89464168775877_1_alg».proof.Proof.Gen.KernelIdeal.Frame
import proofs.«108433_j89464168775877_1_alg».proof.Proof.EdgeSpec
import proofs.«108433_j89464168775877_1_alg».proof.Proof.LibEdgeLayers
import Idealize.ShloMosaic.Lib.IdealHost

noncomputable section

open scoped BigOperators

namespace Cert.KernelIdeal.Body

open Cert.KernelIdeal Cert.KernelIdeal.Gen Idealize.ShloMosaic Idealize.ShloMosaic.ValueIdx Cert.EdgeSpec Cert.Lib.EdgeLayers

variable (v0 v2 : Vec Ideal S8000x64 .f32) (v13 : Vec Ideal S64x32 .f32) (v16 : Vec Ideal S1x32 .f32)
  (v23 : Vec Ideal S32x1 .f32) (v26 : Vec Ideal S1x1 .f32) (v42 : Vec Ideal S6x64 .f32) (v45 : Vec Ideal S1x64 .f32)
  (v52 : Vec Ideal S64x1 .f32) (v55 : Vec Ideal S1x1 .f32) (y : Fin 8000)

/-- The source block re-laid to its own shape is itself. -/
theorem src_eq : k0_pay2 (F := Ideal) v0 = v0 := by
  unfold k0_pay2
  exact shapeCast_self _ _

/-- The difference of the two blocks at (y,c). -/
theorem diff_at (c : Fin 64) : k0_pay3 (F := Ideal) v0 v2 (ix2 y c) = dcol (rowAt v0 y) (rowAt v2 y) c := by
  unfold k0_pay3
  rw [src_eq]
  simp only [shapeCast_self]
  rfl

/-- Column 0 of the difference: dt. -/
theorem dt_at : k0_pay4 (F := Ideal) v0 v2 (ix2 y 0) = dcol (rowAt v0 y) (rowAt v2 y) 0 := by
  unfold k0_pay4
  exact (column_slice_apply 0 (by decide) _ _ y).trans (diff_at v0 v2 y 0)

/-- Column 1: dx. -/
theorem dx_at : k0_pay5 (F := Ideal) v0 v2 (ix2 y 0) = dcol (rowAt v0 y) (rowAt v2 y) 1 := by
  unfold k0_pay5
  exact (column_slice_apply 1 (by decide) _ _ y).trans (diff_at v0 v2 y 1)

/-- Column 2: dy. -/
theorem dy_at : k0_pay6 (F := Ideal) v0 v2 (ix2 y 0) = dcol (rowAt v0 y) (rowAt v2 y) 2 := by
  unfold k0_pay6
  exact (column_slice_apply 2 (by decide) _ _ y).trans (diff_at v0 v2 y 2)

/-- The squared spatial length. -/
theorem r2_at : k0_pay7 (F := Ideal) v0 v2 (ix2 y 0) = r2 (rowAt v0 y) (rowAt v2 y) := by
  unfold k0_pay7
  show k0_pay5 v0 v2 (ix2 y 0) * k0_pay5 v0 v2 (ix2 y 0) + k0_pay6 v0 v2 (ix2 y 0) * k0_pay6 v0 v2 (ix2 y 0) = _
  rw [dx_at, dy_at]
  rfl

/-- The interval. -/
theorem s2_at : k0_pay8 (F := Ideal) v0 v2 v13 v16 v23 v26 (ix2 y 0)
    = s2 (rowAt v0 y) (rowAt v2 y) (mat v13) (rowv v16) (colv v23) (entry11 v26) := by
  unfold k0_pay8
  rw [src_eq]
  show (Ideal.ofBits .f32 0x00000000#32 - (addf (matmul dot_S8000x32_S32x1_S8000x1_1_0_0_1_n_n none (truncf .bf16 _ _) (truncf .bf16 v23 _) _)
      (broadcastTo S8000x1 (shapeCast S1x1 v26 _) _)) (ix2 y 0)) * (k0_pay4 v0 v2 (ix2 y 0) * k0_pay4 v0 v2 (ix2 y 0))
      + k0_pay7 v0 v2 (ix2 y 0) = _
  rw [affine_at dot_S8000x32_S32x1_S8000x1_1_0_0_1_n_n rfl rfl rfl rfl rfl rfl, dt_at, r2_at, Ideal.ofBits_zero_f32, zero_sub]
  simp only [relu_at dot_S8000x64_S64x32_S8000x32_1_0_0_1_n_n rfl rfl rfl rfl rfl rfl]
  rfl

/-- The spatial length. -/
theorem len_at : k0_pay9 (F := Ideal) v0 v2 (ix2 y 0) = Ideal.sqrt (r2 (rowAt v0 y) (rowAt v2 y)) := by
  unfold k0_pay9
  show Ideal.sqrt (k0_pay7 v0 v2 (ix2 y 0)) = _
  rw [r2_at]

/-- The time-like flag. -/
theorem tl_at : k0_pay10 (F := Ideal) v0 v2 v13 v16 v23 v26 (ix2 y 0)
    = tl (rowAt v0 y) (rowAt v2 y) (mat v13) (rowv v16) (colv v23) (entry11 v26) := by
  unfold k0_pay10
  show Scalar.select (FloatOps.cmpf (F := Ideal) (φ := .f32) .olt (k0_pay8 v0 v2 v13 v16 v23 v26 (ix2 y 0)) (Ideal.ofBits .f32 0x00000000#32))
      (Ideal.ofBits .f32 0x3F800000#32) (Ideal.ofBits .f32 0x00000000#32) = _
  rw [s2_at, Ideal.ofBits_zero_f32, Ideal.ofBits_one_f32]
  rfl

/-- The last two layers on six feature columns, at (y,0). -/
theorem head_at (v5 v6 v7 v33 v34 v39 : FVec Ideal S8000x1 .f32) :
    k0_pay1 (F := Ideal) v5 v6 v7 v33 v34 v39 v42 v45 v52 v55 (ix2 y 0)
      = Ideal.logistic ((∑ k : Fin 64, max ((v6 (ix2 y 0) * mat v42 0 k + v7 (ix2 y 0) * mat v42 1 k + v5 (ix2 y 0) * mat v42 2 k
          + v33 (ix2 y 0) * mat v42 3 k + v34 (ix2 y 0) * mat v42 4 k + v39 (ix2 y 0) * mat v42 5 k) + rowv v45 k) 0 * colv v52 k)
          + entry11 v55) := by
  unfold k0_pay1
  show Ideal.logistic ((addf (F := Ideal) (matmul dot_S8000x64_S64x1_S8000x1_1_0_0_1_n_n none (truncf .bf16 _ _) (truncf .bf16 v52 _) _)
      (broadcastTo S8000x1 (shapeCast S1x1 v55 _) _)) (ix2 y 0)) = _
  rw [affine_at dot_S8000x64_S64x1_S8000x1_1_0_0_1_n_n rfl rfl rfl rfl rfl rfl]
  simp only [relu_six_at dot_S8000x6_S6x64_S8000x64_1_0_0_1_n_n rfl rfl rfl rfl rfl rfl]
  rfl

/-- **The block the body leaves, at (y,0)**: the score of the two rows. -/
theorem out_at (x0 x1 : Vec Ideal S8000x64 .f32) (x2 : Vec Ideal S64x32 .f32) (x3 : Vec Ideal S1x32 .f32)
    (x4 : Vec Ideal S32x1 .f32) (x5 : Vec Ideal S1x1 .f32) (x6 : Vec Ideal S6x64 .f32) (x7 : Vec Ideal S1x64 .f32)
    (x8 : Vec Ideal S64x1 .f32) (x9 : Vec Ideal S1x1 .f32) :
    out0_10 (F := Ideal) x0 x1 x2 x3 x4 x5 x6 x7 x8 x9 (ix2 y 0)
      = score (rowAt x0 y) (rowAt x1 y) (mat x2) (rowv x3) (colv x4) (entry11 x5) (mat x6) (rowv x7) (colv x8) (entry11 x9) := by
  have hz : (![0, 0] : Fin 2 → Nat) = fun _ => 0 := by funext a; match a with | ⟨0, _⟩ => rfl | ⟨1, _⟩ => rfl
  unfold out0_10
  rw [View.canon_unit_zero hz]
  simp only [View.ld_unit_zero (S := S8000x64) hz, View.ld_unit_zero (S := S64x32) hz, View.ld_unit_zero (S := S1x32) hz,
    View.ld_unit_zero (S := S32x1) hz, View.ld_unit_zero (S := S1x1) hz, View.ld_unit_zero (S := S6x64) hz,
    View.ld_unit_zero (S := S1x64) hz, View.ld_unit_zero (S := S64x1) hz]
  rw [head_at, dx_at, dy_at, dt_at, s2_at, len_at, tl_at]
  rfl

end Cert.KernelIdeal.Body

end
-- ==== Proof.EdgeArray.lean ====
/-
  FROM BLOCKS TO THE ARRAY, AND THE LINE AFTER THE CALL.

  The grid has 200 points; point t stages rows 8000 t … 8000 t + 7999 of the two gathered-row arrays, the eight weight
  arrays whole, and writes rows 8000 t … 8000 t + 7999 of the [1600000,1] result.  So what point t writes back is block t
  of ONE column: entry (r,0) is the score of row r of the gathered source rows and row r of the gathered destination
  rows.  Row r lies in the block of point r / 8000, so the blocks cover the column and the array ends holding it.
  The program's last line re-lays the [1600000,1] column as a vector of length 1600000: entry e is entry (e,0).
-/
import proofs.«108433_j89464168775877_1_alg».proof.Proof.Gen.KernelIdeal.Frame
import proofs.«108433_j89464168775877_1_alg».proof.Proof.EdgeBody
import Idealize.ShloMosaic.Lib.Pipeline.Value
import Idealize.ShloMosaic.Lib.StableHlo.Run

set_option maxRecDepth 16384

noncomputable section

open scoped BigOperators

namespace Cert.KernelIdeal.EdgeValue

open Cert.KernelIdeal Cert.KernelIdeal.Gen Idealize.ShloMosaic Idealize.ShloMosaic.TcCoe Idealize.ShloMosaic.ValueIdx
open Idealize.SL.Sem Cert.EdgeSpec Cert.Lib.EdgeLayers
open Idealize.ShloMosaic.Pipeline (Dat)

variable (m : (ℓ : Loc nD τ sig) → Buf (Elt Ideal) ℓ) (ρ : Dev nD → PrngReg)

/-- The score of edge `r` from the arrays the call is given. -/
def scoreAt (E E' : S1600000x64.Idx → EReal) (wp1 : S64x32.Idx → EReal) (bp1 : S1x32.Idx → EReal) (wp2 : S32x1.Idx → EReal)
    (bp2 : S1x1.Idx → EReal) (we1 : S6x64.Idx → EReal) (be1 : S1x64.Idx → EReal) (we2 : S64x1.Idx → EReal) (be2 : S1x1.Idx → EReal)
    (r : Fin 1600000) : EReal :=
  score (rowAt E r) (rowAt E' r) (mat wp1) (rowv bp1) (colv wp2) (entry11 bp2) (mat we1) (rowv be1) (colv we2) (entry11 be2)

/-- The score of edge `r` from the arrays as the call finds them. -/
def colAt (c : Dev nD) (r : Fin 1600000) : EReal :=
  scoreAt (V m c main_v35) (V m c main_v42) (V m c main_arg5) (V m c main_v43) (V m c main_arg7) (V m c main_v44)
    (V m c main_arg9) (V m c main_v45) (V m c main_arg11) (V m c main_v46) r

/-- The [1600000,1] column of those scores. -/
def col (c : Dev nD) : S1600000x1.Idx → EReal := fun i => colAt m c ⟨(i 0).val, idx2_lt0 i⟩

/-- The column at an index. -/
theorem col_apply (c : Dev nD) (i : S1600000x1.Idx) : col m c i = colAt m c ⟨(i 0).val, idx2_lt0 i⟩ := rfl

/-- The printed index maps, decided over the grid: the two row windows and the result window are at block (t, 0), every
    weight window at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0
    ∧ (∀ a : Fin 2, win0_2.index t a = 0) ∧ (∀ a : Fin 2, win0_3.index t a = 0) ∧ (∀ a : Fin 2, win0_4.index t a = 0)
    ∧ (∀ a : Fin 2, win0_5.index t a = 0) ∧ (∀ a : Fin 2, win0_6.index t a = 0) ∧ (∀ a : Fin 2, win0_7.index t a = 0)
    ∧ (∀ a : Fin 2, win0_8.index t a = 0) ∧ (∀ a : Fin 2, win0_9.index t a = 0) :=
  (by decide +kernel : ∀ t : Fin grid0.N, _)

/-- A grid point is below 200. -/
theorem point_lt (t : Fin cfg0.N) : t.val < 200 := lt_of_lt_of_eq t.isLt N_0

/-- Row y of the source block of point t is row 8000 t + y of the gathered source rows. -/
theorem src_row (c : Dev nD) (t : Fin cfg0.N) (y : Fin 8000) :
    rowAt (iblk m c 0 t) y = rowAt (V m c main_v35) ⟨t.val * 8000 + y.val, by have := point_lt t; omega⟩ := by
  funext j
  show V m c main_v35 (((cfg0.win 0).blk t).view.emb (ix2 y j)) = V m c main_v35 (ix2 ⟨t.val * 8000 + y.val, _⟩ j)
  refine congrArg (V m c main_v35) ?_
  funext a; apply Fin.ext
  obtain ⟨e0, e1, -⟩ := idx_facts t
  match a with
  | ⟨0, _⟩ => show win0_0.index t (0 : Fin 2) * 8000 + 1 * y.val = t.val * 8000 + y.val; rw [e0]; omega
  | ⟨1, _⟩ => show win0_0.index t (1 : Fin 2) * 64 + 1 * j.val = j.val; rw [e1]; omega

/-- Row y of the destination block of point t is row 8000 t + y of the gathered destination rows. -/
theorem dst_row (c : Dev nD) (t : Fin cfg0.N) (y : Fin 8000) :
    rowAt (iblk m c 1 t) y = rowAt (V m c main_v42) ⟨t.val * 8000 + y.val, by have := point_lt t; omega⟩ := by
  funext j
  show V m c main_v42 (((cfg0.win 1).blk t).view.emb (ix2 y j)) = V m c main_v42 (ix2 ⟨t.val * 8000 + y.val, _⟩ j)
  refine congrArg (V m c main_v42) ?_
  funext a; apply Fin.ext
  obtain ⟨-, -, e0, e1, -⟩ := idx_facts t
  match a with
  | ⟨0, _⟩ => show win0_1.index t (0 : Fin 2) * 8000 + 1 * y.val = t.val * 8000 + y.val; rw [e0]; omega
  | ⟨1, _⟩ => show win0_1.index t (1 : Fin 2) * 64 + 1 * j.val = j.val; rw [e1]; omega

/-- Window 2's block at every point is its whole array. -/
theorem whole_2 (c : Dev nD) (t : Fin cfg0.N) : iblk m c 2 t = V m c main_arg5 := by
  funext i
  show V m c main_arg5 (((cfg0.win 2).blk t).view.emb i) = V m c main_arg5 i
  refine congrArg (V m c main_arg5) ?_
  funext a; apply Fin.ext
  have h := (idx_facts t).2.2.2.2.2.2.1
  match a with
  | ⟨0, _⟩ => show win0_2.index t (0 : Fin 2) * 64 + 1 * (i 0).val = (i 0).val; rw [h]; omega
  | ⟨1, _⟩ => show win0_2.index t (1 : Fin 2) * 32 + 1 * (i 1).val = (i 1).val; rw [h]; omega

/-- Window 3's block at every point is its whole array. -/
theorem whole_3 (c : Dev nD) (t : Fin cfg0.N) : iblk m c 3 t = V m c main_v43 := by
  funext i
  show V m c main_v43 (((cfg0.win 3).blk t).view.emb i) = V m c main_v43 i
  refine congrArg (V m c main_v43) ?_
  funext a; apply Fin.ext
  have h := (idx_facts t).2.2.2.2.2.2.2.1
  match a with
  | ⟨0, _⟩ => show win0_3.index t (0 : Fin 2) * 1 + 1 * (i 0).val = (i 0).val; rw [h]; omega
  | ⟨1, _⟩ => show win0_3.index t (1 : Fin 2) * 32 + 1 * (i 1).val = (i 1).val; rw [h]; omega

/-- Window 4's block at every point is its whole array. -/
theorem whole_4 (c : Dev nD) (t : Fin cfg0.N) : iblk m c 4 t = V m c main_arg7 := by
  funext i
  show V m c main_arg7 (((cfg0.win 4).blk t).view.emb i) = V m c main_arg7 i
  refine congrArg (V m c main_arg7) ?_
  funext a; apply Fin.ext
  have h := (idx_facts t).2.2.2.2.2.2.2.2.1
  match a with
  | ⟨0, _⟩ => show win0_4.index t (0 : Fin 2) * 32 + 1 * (i 0).val = (i 0).val; rw [h]; omega
  | ⟨1, _⟩ => show win0_4.index t (1 : Fin 2) * 1 + 1 * (i 1).val = (i 1).val; rw [h]; omega

/-- Window 5's block at every point is its whole array. -/
theorem whole_5 (c : Dev nD) (t : Fin cfg0.N) : iblk m c 5 t = V m c main_v44 := by
  funext i
  show V m c main_v44 (((cfg0.win 5).blk t).view.emb i) = V m c main_v44 i
  refine congrArg (V m c main_v44) ?_
  funext a; apply Fin.ext
  have h := (idx_facts t).2.2.2.2.2.2.2.2.2.1
  match a with
  | ⟨0, _⟩ => show win0_5.index t (0 : Fin 2) * 1 + 1 * (i 0).val = (i 0).val; rw [h]; omega
  | ⟨1, _⟩ => show win0_5.index t (1 : Fin 2) * 1 + 1 * (i 1).val = (i 1).val; rw [h]; omega

/-- Window 6's block at every point is its whole array. -/
theorem whole_6 (c : Dev nD) (t : Fin cfg0.N) : iblk m c 6 t = V m c main_arg9 := by
  funext i
  show V m c main_arg9 (((cfg0.win 6).blk t).view.emb i) = V m c main_arg9 i
  refine congrArg (V m c main_arg9) ?_
  funext a; apply Fin.ext
  have h := (idx_facts t).2.2.2.2.2.2.2.2.2.2.1
  match a with
  | ⟨0, _⟩ => show win0_6.index t (0 : Fin 2) * 6 + 1 * (i 0).val = (i 0).val; rw [h]; omega
  | ⟨1, _⟩ => show win0_6.index t (1 : Fin 2) * 64 + 1 * (i 1).val = (i 1).val; rw [h]; omega

/-- Window 7's block at every point is its whole array. -/
theorem whole_7 (c : Dev nD) (t : Fin cfg0.N) : iblk m c 7 t = V m c main_v45 := by
  funext i
  show V m c main_v45 (((cfg0.win 7).blk t).view.emb i) = V m c main_v45 i
  refine congrArg (V m c main_v45) ?_
  funext a; apply Fin.ext
  have h := (idx_facts t).2.2.2.2.2.2.2.2.2.2.2.1
  match a with
  | ⟨0, _⟩ => show win0_7.index t (0 : Fin 2) * 1 + 1 * (i 0).val = (i 0).val; rw [h]; omega
  | ⟨1, _⟩ => show win0_7.index t (1 : Fin 2) * 64 + 1 * (i 1).val = (i 1).val; rw [h]; omega

/-- Window 8's block at every point is its whole array. -/
theorem whole_8 (c : Dev nD) (t : Fin cfg0.N) : iblk m c 8 t = V m c main_arg11 := by
  funext i
  show V m c main_arg11 (((cfg0.win 8).blk t).view.emb i) = V m c main_arg11 i
  refine congrArg (V m c main_arg11) ?_
  funext a; apply Fin.ext
  have h := (idx_facts t).2.2.2.2.2.2.2.2.2.2.2.2.1
  match a with
  | ⟨0, _⟩ => show win0_8.index t (0 : Fin 2) * 64 + 1 * (i 0).val = (i 0).val; rw [h]; omega
  | ⟨1, _⟩ => show win0_8.index t (1 : Fin 2) * 1 + 1 * (i 1).val = (i 1).val; rw [h]; omega

/-- Window 9's block at every point is its whole array. -/
theorem whole_9 (c : Dev nD) (t : Fin cfg0.N) : iblk m c 9 t = V m c main_v46 := by
  funext i
  show V m c main_v46 (((cfg0.win 9).blk t).view.emb i) = V m c main_v46 i
  refine congrArg (V m c main_v46) ?_
  funext a; apply Fin.ext
  have h := (idx_facts t).2.2.2.2.2.2.2.2.2.2.2.2.2
  match a with
  | ⟨0, _⟩ => show win0_9.index t (0 : Fin 2) * 1 + 1 * (i 0).val = (i 0).val; rw [h]; omega
  | ⟨1, _⟩ => show win0_9.index t (1 : Fin 2) * 1 + 1 * (i 1).val = (i 1).val; rw [h]; omega

/-- The block the body leaves at point t, at (y,0): the score of edge 8000 t + y. -/
theorem block_at (c : Dev nD) (t : Fin cfg0.N) (y : Fin 8000) :
    out0_10 (iblk m c 0 t) (iblk m c 1 t) (iblk m c 2 t) (iblk m c 3 t) (iblk m c 4 t) (iblk m c 5 t) (iblk m c 6 t) (iblk m c 7 t)
      (iblk m c 8 t) (iblk m c 9 t) (ix2 y 0) = colAt m c ⟨t.val * 8000 + y.val, by have := point_lt t; omega⟩ := by
  refine (Cert.KernelIdeal.Body.out_at y (iblk m c 0 t) (iblk m c 1 t) (iblk m c 2 t) (iblk m c 3 t) (iblk m c 4 t) (iblk m c 5 t)
    (iblk m c 6 t) (iblk m c 7 t) (iblk m c 8 t) (iblk m c 9 t)).trans ?_
  rw [src_row, dst_row, whole_2, whole_3, whole_4, whole_5, whole_6, whole_7, whole_8, whole_9]
  rfl

/-- Row y of the result block of point t is row 8000 t + y of the result column. -/
theorem out_row (t : Fin cfg0.N) (y : Fin 8000) :
    (⟨((((cfg0.win 10).blk t).view.emb (ix2 y (0 : Fin 1))) 0).val, idx2_lt0 _⟩ : Fin 1600000)
      = ⟨t.val * 8000 + y.val, by have := point_lt t; omega⟩ := by
  apply Fin.ext
  show win0_10.index t (0 : Fin 2) * 8000 + 1 * y.val = t.val * 8000 + y.val
  rw [(idx_facts t).2.2.2.2.1]; omega

/-- The block the body leaves at point t, at (y,0), is the score column at the array index of (y,0) in block t. -/
theorem flushed_at (c : Dev nD) (t : Fin cfg0.N) (y : Fin 8000) :
    out0_10 (iblk m c 0 t) (iblk m c 1 t) (iblk m c 2 t) (iblk m c 3 t) (iblk m c 4 t) (iblk m c 5 t) (iblk m c 6 t) (iblk m c 7 t)
      (iblk m c 8 t) (iblk m c 9 t) (ix2 y 0) = col m c (((cfg0.win 10).blk t).view.emb (ix2 y 0)) := by
  rw [block_at m c t y, col_apply, out_row t y]

/-- WHAT POINT t WRITES BACK is block t of the score column. -/
theorem flushed_eq (c : Dev nD) (t : Fin cfg0.N) :
    (dats m 0 c).flushed 10 t = ((cfg0.win 10).blk t).view.read (Elt Ideal) (col m c) := by
  show (cfg0.win 10).cut (grid0.coords t) ((dats m 0 c).after 10 t) = _
  rw [after0_10]
  funext j
  obtain ⟨y, q, rfl⟩ : ∃ (y : Fin 8000) (q : Fin 1), j = ix2 y q := ⟨j 0, j 1, eq_ix2 j⟩
  obtain rfl : q = 0 := Subsingleton.elim _ _
  exact flushed_at m c t y

/-- An index of the column is in point t's block iff each coordinate is in the block's range on its axis. -/
theorem mem_blk (t : Fin cfg0.N) (i : S1600000x1.Idx) :
    i ∈ ((cfg0.win 10).blk t).view.set ↔ ∀ a : Fin 2, win0_10.index t a * S8000x1.size a ≤ (i a).val ∧ (i a).val < win0_10.index t a * S8000x1.size a + S8000x1.size a := by
  show i ∈ ((View.whole main_v47).slice (win0_10.rect t)).set ↔ _
  rw [View.set_slice_whole, Rect.mem_set_unit]
  exact Iff.rfl

/-- Every index of the column is in the block of the point its row names. -/
theorem cover (i : S1600000x1.Idx) : ∃ t : Fin cfg0.N, (cfg0.win 10).flush t = true ∧ i ∈ ((cfg0.win 10).blk t).view.set := by
  have hi0 : (i 0).val < 1600000 := (i 0).isLt
  have hi1 : (i 1).val < 1 := (i 1).isLt
  let t : Fin cfg0.N := ⟨(i 0).val / 8000, lt_of_lt_of_eq (by omega : (i 0).val / 8000 < 200) N_0.symm⟩
  refine ⟨t, flush0_10 t, ?_⟩
  rw [mem_blk]
  have e0 : win0_10.index t (0 : Fin 2) = (i 0).val / 8000 := (idx_facts t).2.2.2.2.1
  have e1 : win0_10.index t (1 : Fin 2) = 0 := (idx_facts t).2.2.2.2.2.1
  intro a
  match a with
  | ⟨0, _⟩ => show win0_10.index t (0 : Fin 2) * 8000 ≤ (i 0).val ∧ (i 0).val < win0_10.index t (0 : Fin 2) * 8000 + 8000; rw [e0]; omega
  | ⟨1, _⟩ => show win0_10.index t (1 : Fin 2) * 1 ≤ (i 1).val ∧ (i 1).val < win0_10.index t (1 : Fin 2) * 1 + 1; rw [e1]; omega

/-- THE ARRAY after the call: the score column. -/
theorem final (c : Dev nD) : (dats m 0 c).arrAt 10 cfg0.N = col m c :=
  (dats m 0 c).arrAt_eq_of_cover 10 (col m c) (fun t _ => flushed_eq m c t) (cover)

end Cert.KernelIdeal.EdgeValue

end
-- ==== Proof.EdgeRun.lean ====
/-
  THE KERNEL PROGRAM'S RUN, with its result named.

  After the call the program's one remaining line re-lays the [1600000,1] score column as a vector of length
  1600000.  The generated run of the whole program states the result buffer as that line applied to the call's
  output array; the output array is the score column (the blocks cover it), so the result is the column re-laid.
  The argument arrays end as launched.
-/
import proofs.«108433_j89464168775877_1_alg».proof.Proof.Gen.KernelIdeal.Frame
import proofs.«108433_j89464168775877_1_alg».proof.Proof.EdgeArray
import Idealize.ShloMosaic.Lib.StableHlo.Run

set_option maxRecDepth 16384

noncomputable section

namespace Cert.KernelIdeal.EdgeRun

open Cert.KernelIdeal Cert.KernelIdeal.Gen Idealize.ShloMosaic Idealize.ShloMosaic.TcCoe Idealize.ShloMosaic.StableHlo
open Idealize.SL.Sem Cert.KernelIdeal.EdgeValue
open Idealize.ShloMosaic.Pipeline (Dat)

variable (m : (ℓ : Loc nD τ sig) → Buf (Elt Ideal) ℓ) (ρ : Dev nD → PrngReg)

/-- The program's result: the score column re-laid as a vector. -/
def result (c : Dev nD) : Buf (Elt Ideal) ((c.tc : Thread nD τ).loc main_v48) :=
  shapeCast S1600000 (col m c) shapeCasts_S1600000x1_S1600000

/-- What the line after the call leaves in the result buffer. -/
theorem tail_eq (c : Dev nD) : Pipeline.afterTail₀ cfgs (dats m) 0 (V0 m) [hostOps1] c main_v48 = result m c := by
  unfold Pipeline.afterTail₀
  show StableHlo.after hostOps1 _ (Proc.devRef .tc main_v48) = _
  after_results
  have h47 : Pipeline.withArrays (cfgs 0).spec c (V0 m c) (fun w => (dats m 0 c).arrAt w (cfgs 0).N) (Proc.devRef .tc main_v47)
      = col m c := (Pipeline.withArrays_arr spec0 launch0.win.arr_inj c _ _ 10).trans (final m c)
  rw [h47]
  rfl

/-- Every weakly fair execution of the program terminates with the result buffer at `result` and the arguments unchanged. -/
theorem run : θ_run defs (onTc (τ := τ) (main (F := Ideal))) ⟨m, fun _ => 0, ρ⟩ (fun r => ∀ c : Dev nD,
      r.2.mem ((c.tc : Thread nD τ).loc main_v48) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨((h c).2 main_v48 (Pipeline.mem_restRefs_of main_v48 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 2).trans ((((dats m) 0 c).arrAt_in 2 rfl _).trans ((A_eq m c 2).trans (V_main_arg5 m c))),
      (((h c).2 main_arg6 (Pipeline.mem_restRefs_of main_arg6 (by decide) (by decide))).trans (W_main_arg6 m (dats m) c)),
      ((h c).1 4).trans ((((dats m) 0 c).arrAt_in 4 rfl _).trans ((A_eq m c 4).trans (V_main_arg7 m c))),
      (((h c).2 main_arg8 (Pipeline.mem_restRefs_of main_arg8 (by decide) (by decide))).trans (W_main_arg8 m (dats m) c)),
      ((h c).1 6).trans ((((dats m) 0 c).arrAt_in 6 rfl _).trans ((A_eq m c 6).trans (V_main_arg9 m c))),
      (((h c).2 main_arg10 (Pipeline.mem_restRefs_of main_arg10 (by decide) (by decide))).trans (W_main_arg10 m (dats m) c)),
      ((h c).1 8).trans ((((dats m) 0 c).arrAt_in 8 rfl _).trans ((A_eq m c 8).trans (V_main_arg11 m c))),
      (((h c).2 main_arg12 (Pipeline.mem_restRefs_of main_arg12 (by decide) (by decide))).trans (W_main_arg12 m (dats m) c))⟩) (run_main m ρ)

end Cert.KernelIdeal.EdgeRun

end
-- ==== Proof.EdgeRef.lean ====
/-
  THE REFERENCE, entry by entry.

  Write  E  for the array of gathered source rows and  E'  for the gathered destination rows ([1600000,64] each:
  the reference's two gathers of the node embeddings).  The reference works on whole vectors of length 1600000:
  columns 0, 1, 2 of  E' - E  as vectors, their squares, a 64 -> 32 -> 1 perceptron of  E  flattened to a vector,
  the interval, its square root and sign test, the six feature vectors stacked into a [1600000,6] array, a
  6 -> 64 -> 1 perceptron of that flattened again, and  1 / (1 + exp (-logit)).  Read at edge  e  every stage is the
  matching stage of Cert.EdgeSpec on row e of E and row e of E'; the last line is the logistic function by its definition.
-/
import proofs.«108433_j89464168775877_1_alg».proof.Proof.Gen.ReferenceIdeal.Read
import proofs.«108433_j89464168775877_1_alg».proof.Proof.EdgeSpec
import proofs.«108433_j89464168775877_1_alg».proof.Proof.LibEdgeLayers
import Idealize.ShloMosaic.Lib.IdealHost

noncomputable section

open scoped BigOperators

namespace Cert.ReferenceIdeal.EdgeRef

open Cert.ReferenceIdeal Cert.ReferenceIdeal.Gen Cert.ReferenceIdeal.Read Idealize.ShloMosaic Idealize.ShloMosaic.ValueIdx Cert.EdgeSpec Cert.Lib.EdgeLayers

/-- An index built coordinate by coordinate is the index built from the same coordinates. -/
macro "idx2" : tactic =>
  `(tactic| (funext a; match a with
    | ⟨0, _⟩ => first | rfl | exact Fin.ext (Nat.div_one _)
    | ⟨1, _⟩ => first | rfl | exact Fin.ext (Nat.div_one _)))
macro "idx1" : tactic =>
  `(tactic| (funext a; match a with
    | ⟨0, _⟩ => first | rfl | exact Fin.ext (Nat.div_one _)))

variable (x0 : (⟨S100000x3, .f32⟩ : BufTy).Contents (Elt Ideal)) (x1 : (⟨S2x1600000, .i32⟩ : BufTy).Contents (Elt Ideal))
  (x2 x3 : (⟨S3x64, .f32⟩ : BufTy).Contents (Elt Ideal)) (x4 : (⟨S64, .f32⟩ : BufTy).Contents (Elt Ideal))
  (x5 : (⟨S64x32, .f32⟩ : BufTy).Contents (Elt Ideal)) (x6 : (⟨S32, .f32⟩ : BufTy).Contents (Elt Ideal))
  (x7 : (⟨S32x1, .f32⟩ : BufTy).Contents (Elt Ideal)) (x8 : (⟨S1, .f32⟩ : BufTy).Contents (Elt Ideal))
  (x9 : (⟨S6x64, .f32⟩ : BufTy).Contents (Elt Ideal)) (x10 : (⟨S64, .f32⟩ : BufTy).Contents (Elt Ideal))
  (x11 : (⟨S64x1, .f32⟩ : BufTy).Contents (Elt Ideal)) (x12 : (⟨S1, .f32⟩ : BufTy).Contents (Elt Ideal))
  (e : Fin 1600000)

/-- The gathered source rows. -/
abbrev srcRows : (⟨2, ![1600000, 64]⟩ : Shape).Idx → EReal := val_main_v35 (F := Ideal) x0 x1 x2 x3 x4
/-- The gathered destination rows. -/
abbrev dstRows : (⟨2, ![1600000, 64]⟩ : Shape).Idx → EReal := val_main_v42 (F := Ideal) x0 x1 x2 x3 x4

/-- The difference array at (e,c). -/
theorem diff_at (c : Fin 64) : val_main_v43 (F := Ideal) x0 x1 x2 x3 x4 (ix2 e c)
    = dcol (rowAt (srcRows x0 x1 x2 x3 x4) e) (rowAt (dstRows x0 x1 x2 x3 x4) e) c := rfl

/-- Column 0 flattened, at e: dt. -/
theorem dt_at : val_main_v45 (F := Ideal) x0 x1 x2 x3 x4 (ix1 e)
    = dcol (rowAt (srcRows x0 x1 x2 x3 x4) e) (rowAt (dstRows x0 x1 x2 x3 x4) e) 0 := by
  rw [val_main_v45_apply, val_main_v44_apply,
    show idx_main_v44 (idx_main_v45 (ix1 e)) = ix2 e (0 : Fin 64) by idx2]
  exact diff_at x0 x1 x2 x3 x4 e 0

/-- Column 1 flattened, at e: dx. -/
theorem dx_at : val_main_v47 (F := Ideal) x0 x1 x2 x3 x4 (ix1 e)
    = dcol (rowAt (srcRows x0 x1 x2 x3 x4) e) (rowAt (dstRows x0 x1 x2 x3 x4) e) 1 := by
  rw [val_main_v47_apply, val_main_v46_apply,
    show idx_main_v46 (idx_main_v47 (ix1 e)) = ix2 e (1 : Fin 64) by idx2]
  exact diff_at x0 x1 x2 x3 x4 e 1

/-- Column 2 flattened, at e: dy. -/
theorem dy_at : val_main_v49 (F := Ideal) x0 x1 x2 x3 x4 (ix1 e)
    = dcol (rowAt (srcRows x0 x1 x2 x3 x4) e) (rowAt (dstRows x0 x1 x2 x3 x4) e) 2 := by
  rw [val_main_v49_apply, val_main_v48_apply,
    show idx_main_v48 (idx_main_v49 (ix1 e)) = ix2 e (2 : Fin 64) by idx2]
  exact diff_at x0 x1 x2 x3 x4 e 2

/-- The squared spatial length at e. -/
theorem r2_at : val_main_v52 (F := Ideal) x0 x1 x2 x3 x4 (ix1 e)
    = r2 (rowAt (srcRows x0 x1 x2 x3 x4) e) (rowAt (dstRows x0 x1 x2 x3 x4) e) := by
  show val_main_v47 (F := Ideal) x0 x1 x2 x3 x4 (ix1 e) * val_main_v47 (F := Ideal) x0 x1 x2 x3 x4 (ix1 e)
    + val_main_v49 (F := Ideal) x0 x1 x2 x3 x4 (ix1 e) * val_main_v49 (F := Ideal) x0 x1 x2 x3 x4 (ix1 e) = _
  rw [dx_at, dy_at]
  rfl

/-- Hidden unit k of the source row's perceptron at e. -/
theorem hid_at (k : Fin 32) : val_main_v58 (F := Ideal) x0 x1 x2 x3 x4 x5 x6 (ix2 e k)
    = hid (rowAt (srcRows x0 x1 x2 x3 x4) e) (mat x5) (vec1 x6) k := by
  show max (val_main_v54 (F := Ideal) x0 x1 x2 x3 x4 x5 (ix2 e k) + val_main_v56 (F := Ideal) x6 (ix2 e k))
    (val_main_call1_v0 (F := Ideal) (ix2 e k)) = _
  rw [val_main_v54_apply, val_main_v56_apply, val_main_v55_apply, val_main_call1_v0_apply, val_main_call1_cst_apply,
    show idx_main_v55 (idx_main_v56 (ix2 e k)) = ix1 k by idx1]
  show max ((∑ j : Fin 64, _) + _) (Ideal.ofBits .f32 0x00000000#32) = _
  rw [Ideal.ofBits_zero_f32]
  unfold hid
  refine congrArg (fun t => max (t + x6 (ix1 k)) 0) (Finset.sum_congr rfl fun j _ => ?_)
  rw [show lidx_main_v54 (ix2 e k) j = ix2 e j by idx2, show ridx_main_v54 (ix2 e k) j = ix2 j k by idx2]
  rfl

/-- The source row's potential at (e,0). -/
theorem phi_at : val_main_v62 (F := Ideal) x0 x1 x2 x3 x4 x5 x6 x7 x8 (ix2 e 0)
    = phi (rowAt (srcRows x0 x1 x2 x3 x4) e) (mat x5) (vec1 x6) (colv x7) (x8 (ix1 0)) := by
  show val_main_v59 (F := Ideal) x0 x1 x2 x3 x4 x5 x6 x7 (ix2 e 0) + val_main_v61 (F := Ideal) x8 (ix2 e 0) = _
  rw [val_main_v59_apply, val_main_v61_apply, val_main_v60_apply,
    show idx_main_v60 (idx_main_v61 (ix2 e (0 : Fin 1))) = ix1 0 by idx1]
  unfold phi
  refine congrArg (fun t => t + x8 (ix1 0)) (Finset.sum_congr rfl fun k _ => ?_)
  rw [show lidx_main_v59 (ix2 e (0 : Fin 1)) k = ix2 e k by idx2, show ridx_main_v59 (ix2 e (0 : Fin 1)) k = ix2 k 0 by idx2, hid_at]
  rfl

/-- The interval at e. -/
theorem s2_at : val_main_v66 (F := Ideal) x0 x1 x2 x3 x4 x5 x6 x7 x8 (ix1 e)
    = s2 (rowAt (srcRows x0 x1 x2 x3 x4) e) (rowAt (dstRows x0 x1 x2 x3 x4) e) (mat x5) (vec1 x6) (colv x7) (x8 (ix1 0)) := by
  show (-(val_main_v63 (F := Ideal) x0 x1 x2 x3 x4 x5 x6 x7 x8 (ix1 e)))
      * (val_main_v45 (F := Ideal) x0 x1 x2 x3 x4 (ix1 e) * val_main_v45 (F := Ideal) x0 x1 x2 x3 x4 (ix1 e))
      + val_main_v52 (F := Ideal) x0 x1 x2 x3 x4 (ix1 e) = _
  rw [val_main_v63_apply, show idx_main_v63 (ix1 e) = ix2 e (0 : Fin 1) by idx2, phi_at, dt_at, r2_at]
  rfl

/-- The spatial length at e. -/
theorem len_at : val_main_v67 (F := Ideal) x0 x1 x2 x3 x4 (ix1 e)
    = Ideal.sqrt (r2 (rowAt (srcRows x0 x1 x2 x3 x4) e) (rowAt (dstRows x0 x1 x2 x3 x4) e)) := by
  show Ideal.sqrt (val_main_v52 (F := Ideal) x0 x1 x2 x3 x4 (ix1 e)) = _
  rw [r2_at]

/-- The time-like flag at e. -/
theorem tl_at : val_main_v71 (F := Ideal) x0 x1 x2 x3 x4 x5 x6 x7 x8 (ix1 e)
    = tl (rowAt (srcRows x0 x1 x2 x3 x4) e) (rowAt (dstRows x0 x1 x2 x3 x4) e) (mat x5) (vec1 x6) (colv x7) (x8 (ix1 0)) := by
  show Scalar.select (FloatOps.cmpf (F := Ideal) (φ := .f32) .olt (val_main_v66 (F := Ideal) x0 x1 x2 x3 x4 x5 x6 x7 x8 (ix1 e)) (val_main_v68 (F := Ideal) (ix1 e)))
      (val_main_call2_v0 (F := Ideal) (ix1 e)) (val_main_call2_v1 (F := Ideal) (ix1 e)) = _
  rw [val_main_v68_apply, val_main_cst_8_apply, val_main_call2_v0_apply, val_main_cst_9_apply, val_main_call2_v1_apply,
    val_main_cst_10_apply, s2_at]
  show Scalar.select (FloatOps.cmpf (F := Ideal) (φ := .f32) .olt _ (Ideal.ofBits .f32 0x00000000#32))
      (Ideal.ofBits .f32 0x3F800000#32) (Ideal.ofBits .f32 0x00000000#32) = _
  rw [Ideal.ofBits_zero_f32, Ideal.ofBits_one_f32]
  rfl

/-- Hidden unit k of the edge predictor at e. -/
theorem hid2_at (k : Fin 64) : val_main_v83 (F := Ideal) x0 x1 x2 x3 x4 x5 x6 x7 x8 x9 x10 (ix2 e k)
    = hid2 (rowAt (srcRows x0 x1 x2 x3 x4) e) (rowAt (dstRows x0 x1 x2 x3 x4) e) (mat x5) (vec1 x6) (colv x7) (x8 (ix1 0)) (mat x9) (vec1 x10) k := by
  show max (val_main_v79 (F := Ideal) x0 x1 x2 x3 x4 x5 x6 x7 x8 x9 (ix2 e k) + val_main_v81 (F := Ideal) x10 (ix2 e k))
    (val_main_call3_v0 (F := Ideal) (ix2 e k)) = _
  rw [val_main_v79_apply, val_main_v81_apply, val_main_v80_apply, val_main_call3_v0_apply, val_main_call3_cst_apply,
    show idx_main_v80 (idx_main_v81 (ix2 e k)) = ix1 k by idx1, Fin.sum_univ_six,
    show lidx_main_v79 (ix2 e k) 0 = ix2 e 0 by idx2, show lidx_main_v79 (ix2 e k) 1 = ix2 e 1 by idx2,
    show lidx_main_v79 (ix2 e k) 2 = ix2 e 2 by idx2, show lidx_main_v79 (ix2 e k) 3 = ix2 e 3 by idx2,
    show lidx_main_v79 (ix2 e k) 4 = ix2 e 4 by idx2, show lidx_main_v79 (ix2 e k) 5 = ix2 e 5 by idx2,
    show ridx_main_v79 (ix2 e k) 0 = ix2 0 k by idx2, show ridx_main_v79 (ix2 e k) 1 = ix2 1 k by idx2,
    show ridx_main_v79 (ix2 e k) 2 = ix2 2 k by idx2, show ridx_main_v79 (ix2 e k) 3 = ix2 3 k by idx2,
    show ridx_main_v79 (ix2 e k) 4 = ix2 4 k by idx2, show ridx_main_v79 (ix2 e k) 5 = ix2 5 k by idx2]
  unfold val_main_v78
  obtain ⟨e0, e1, e2, e3, e4, e5⟩ := six_columns_apply (val_main_v72 (F := Ideal) x0 x1 x2 x3 x4) (val_main_v73 (F := Ideal) x0 x1 x2 x3 x4)
    (val_main_v74 (F := Ideal) x0 x1 x2 x3 x4) (val_main_v75 (F := Ideal) x0 x1 x2 x3 x4 x5 x6 x7 x8) (val_main_v76 (F := Ideal) x0 x1 x2 x3 x4)
    (val_main_v77 (F := Ideal) x0 x1 x2 x3 x4 x5 x6 x7 x8) concatenates_S1600000x1_S1600000x1_S1600000x1_S1600000x1_S1600000x1_S1600000x1_S1600000x6_d1 e
  rw [e0, e1, e2, e3, e4, e5, val_main_v72_apply, val_main_v73_apply, val_main_v74_apply, val_main_v75_apply, val_main_v76_apply,
    val_main_v77_apply,
    show idx_main_v72 (ix2 e (0 : Fin 1)) = ix1 e by idx1, show idx_main_v73 (ix2 e (0 : Fin 1)) = ix1 e by idx1,
    show idx_main_v74 (ix2 e (0 : Fin 1)) = ix1 e by idx1, show idx_main_v75 (ix2 e (0 : Fin 1)) = ix1 e by idx1,
    show idx_main_v76 (ix2 e (0 : Fin 1)) = ix1 e by idx1, show idx_main_v77 (ix2 e (0 : Fin 1)) = ix1 e by idx1,
    dx_at, dy_at, dt_at, s2_at, len_at, tl_at]
  show max (_ + _) (Ideal.ofBits .f32 0x00000000#32) = _
  rw [Ideal.ofBits_zero_f32]
  rfl

/-- **The reference's result at e**: the score of row e of the gathered source rows and row e of the gathered destination rows. -/
theorem result_at : val_main_v94 (F := Ideal) x0 x1 x2 x3 x4 x5 x6 x7 x8 x9 x10 x11 x12 (ix1 e)
    = score (rowAt (srcRows x0 x1 x2 x3 x4) e) (rowAt (dstRows x0 x1 x2 x3 x4) e) (mat x5) (vec1 x6) (colv x7) (x8 (ix1 0))
        (mat x9) (vec1 x10) (colv x11) (x12 (ix1 0)) := by
  show Ideal.div (val_main_v93 (F := Ideal) (ix1 e)) (val_main_v91 (F := Ideal) (ix1 e)
      + Ideal.exp (-(val_main_v88 (F := Ideal) x0 x1 x2 x3 x4 x5 x6 x7 x8 x9 x10 x11 x12 (ix1 e)))) = _
  rw [val_main_v93_apply, val_main_cst_12_apply, val_main_v91_apply, val_main_cst_11_apply, val_main_v88_apply,
    show idx_main_v88 (ix1 e) = ix2 e (0 : Fin 1) by idx2]
  show Ideal.div (Ideal.ofBits .f32 0x3F800000#32) (Ideal.ofBits .f32 0x3F800000#32
      + Ideal.exp (-(val_main_v84 (F := Ideal) x0 x1 x2 x3 x4 x5 x6 x7 x8 x9 x10 x11 (ix2 e 0) + val_main_v86 (F := Ideal) x12 (ix2 e 0)))) = _
  rw [Ideal.ofBits_one_f32, val_main_v84_apply, val_main_v86_apply, val_main_v85_apply,
    show idx_main_v85 (idx_main_v86 (ix2 e (0 : Fin 1))) = ix1 0 by idx1]
  unfold score Ideal.logistic
  refine congrArg (fun t => Ideal.div 1 (1 + Ideal.exp (-(t + x12 (ix1 0))))) (Finset.sum_congr rfl fun k _ => ?_)
  rw [show lidx_main_v84 (ix2 e (0 : Fin 1)) k = ix2 e k by idx2, show ridx_main_v84 (ix2 e (0 : Fin 1)) k = ix2 k 0 by idx2, hid2_at]
  rfl

end Cert.ReferenceIdeal.EdgeRef

end
-- ==== Proof.LibTypedRef.lean ====
/-
  A VALUE PASSED THROUGH A TYPED BUFFER REFERENCE AND BACK IS THE VALUE, generic in everything.

  The operations of a module-local function (an outlined  where,  clip,  relu, …) name their buffers with the
  tensor type attached: a typed reference is a buffer together with the equation "this buffer's type is T".
  Writing a value of type T through it transports the value along that equation to the buffer's own type, and
  reading transports it back.  The two transports are inverse to each other whatever the buffer and whatever the
  equation's proof:

  * `ofBuf_toBuf`  — read back what was written through the same typed reference: the value written;
  * `toBuf_ofBuf`  — write back what was read through it: the contents read.

  These cancel every transport on a function's OWN intermediate buffers.  What is then left in a term are the
  transports at the buffers the function shares with its caller (one per operand read, one per result written);
  each of those is the identity by `rfl` when stated at a VARIABLE for the one buffer concerned, because that
  buffer's type in the program's table computes to the stated type.  Removing all of them before two large terms are
  compared matters: met in the middle of a large term a transport is not reduced first, the comparison drifts into
  unfolding the operations around it, and an operation that sums over a long axis is then evaluated.

  Nothing here depends on a program.
-/
import Idealize.ShloMosaic.Lib.StableHlo

noncomputable section

namespace Cert.Lib.TypedRef

open Idealize.ShloMosaic Idealize.ShloMosaic.StableHlo

variable {sig : RefSig} {Val : EltTy → Type} {T : BufTy}

/-- Reading back through a typed reference what was written through it gives the value written. -/
theorem ofBuf_toBuf (x : TRef sig T) (v : T.Contents Val) : x.ofBuf (x.toBuf v) = v := by
  obtain ⟨r, h, a, b⟩ := x
  subst h
  rfl

/-- Writing back through a typed reference what was read through it gives the contents read. -/
theorem toBuf_ofBuf (x : TRef sig T) (v : x.ref.ty.Contents Val) : x.toBuf (x.ofBuf v) = v := by
  obtain ⟨r, h, a, b⟩ := x
  subst h
  rfl

end Cert.Lib.TypedRef

end
-- ==== Proof.EdgeGlue.lean ====
/-
  THE TWO PROGRAMS' HOST LINES BEFORE THE EDGE STAGE ARE THE SAME LINES.

  Before the call the kernel program runs, on the host, the node embedding (two gathers and two scatter-adds for the
  mean of the neighbours, two products, a bias, a maximum with zero inside a function of its own) and then gathers the
  embedding's rows at the edges' sources and destinations; the reference runs the same lines.  So the arrays the call
  finds are the reference's gathered rows of the same arguments: the terms agree operation by operation (the typed
  references of the outlined maximum are transports along an equation that holds by computation, removed first).
  The four bias vectors reach the call re-laid as [1,B] rows; the four weight matrices reach it as launched.
-/
import proofs.«108433_j89464168775877_1_alg».proof.Proof.Gen.KernelIdeal.Frame
import proofs.«108433_j89464168775877_1_alg».proof.Proof.Gen.ReferenceIdeal.Read
import proofs.«108433_j89464168775877_1_alg».proof.Proof.EdgeSpec
import proofs.«108433_j89464168775877_1_alg».proof.Proof.LibEdgeLayers
import proofs.«108433_j89464168775877_1_alg».proof.Proof.LibTypedRef
import Idealize.ShloMosaic.Lib.StableHlo.Run

set_option maxRecDepth 16384

noncomputable section

namespace Cert.KernelIdeal.EdgeGlue

open Cert.KernelIdeal Cert.KernelIdeal.Gen Idealize.ShloMosaic Idealize.ShloMosaic.TcCoe Idealize.ShloMosaic.StableHlo
open Idealize.ShloMosaic.ValueIdx Idealize.SL.Sem Cert.EdgeSpec Cert.Lib.EdgeLayers

variable (m : (ℓ : Loc nD τ sig) → Buf (Elt Ideal) ℓ)

/-- The source rows the call finds are the reference's gathered source rows of the same arguments. -/
theorem src_eq (c : Dev nD) : (V m c main_v35 : S1600000x64.Idx → EReal) =
    Cert.ReferenceIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [Gen.V, Gen.V0]
  simp only [Gen.hostOps0, Gen.hostOps0_1, Gen.hostOps0_2, List.flatten_cons, List.flatten_nil, List.append_nil, List.cons_append, List.nil_append]
  after_results_simp
  simp only [Cert.Lib.TypedRef.ofBuf_toBuf]
  rfl

/-- The destination rows the call finds are the reference's gathered destination rows of the same arguments. -/
theorem dst_eq (c : Dev nD) : (V m c main_v42 : S1600000x64.Idx → EReal) =
    Cert.ReferenceIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [Gen.V, Gen.V0]
  simp only [Gen.hostOps0, Gen.hostOps0_1, Gen.hostOps0_2, List.flatten_cons, List.flatten_nil, List.append_nil, List.cons_append, List.nil_append]
  after_results_simp
  simp only [Cert.Lib.TypedRef.ofBuf_toBuf]
  rfl

/-- The first bias reaches the call as a [1,32] row. -/
theorem bias1_eq (c : Dev nD) : (V m c main_v43 : S1x32.Idx → EReal) = shapeCast S1x32 (m ((c : Thread nD τ).loc main_arg6)) shapeCasts_S32_S1x32 := by
  dsimp only [Gen.V, Gen.V0]
  simp only [Gen.hostOps0, Gen.hostOps0_1, Gen.hostOps0_2, List.flatten_cons, List.flatten_nil, List.append_nil, List.cons_append, List.nil_append]
  after_results_simp
  rfl

/-- The second bias reaches the call as a [1,1] array. -/
theorem bias2_eq (c : Dev nD) : (V m c main_v44 : S1x1.Idx → EReal) = shapeCast S1x1 (m ((c : Thread nD τ).loc main_arg8)) shapeCasts_S1_S1x1 := by
  dsimp only [Gen.V, Gen.V0]
  simp only [Gen.hostOps0, Gen.hostOps0_1, Gen.hostOps0_2, List.flatten_cons, List.flatten_nil, List.append_nil, List.cons_append, List.nil_append]
  after_results_simp
  rfl

/-- The third bias reaches the call as a [1,64] row. -/
theorem bias3_eq (c : Dev nD) : (V m c main_v45 : S1x64.Idx → EReal) = shapeCast S1x64 (m ((c : Thread nD τ).loc main_arg10)) shapeCasts_S64_S1x64 := by
  dsimp only [Gen.V, Gen.V0]
  simp only [Gen.hostOps0, Gen.hostOps0_1, Gen.hostOps0_2, List.flatten_cons, List.flatten_nil, List.append_nil, List.cons_append, List.nil_append]
  after_results_simp
  rfl

/-- The fourth bias reaches the call as a [1,1] array. -/
theorem bias4_eq (c : Dev nD) : (V m c main_v46 : S1x1.Idx → EReal) = shapeCast S1x1 (m ((c : Thread nD τ).loc main_arg12)) shapeCasts_S1_S1x1 := by
  dsimp only [Gen.V, Gen.V0]
  simp only [Gen.hostOps0, Gen.hostOps0_1, Gen.hostOps0_2, List.flatten_cons, List.flatten_nil, List.append_nil, List.cons_append, List.nil_append]
  after_results_simp
  rfl

end Cert.KernelIdeal.EdgeGlue

end
-- ==== Proof.EdgeBridge.lean ====
/-
  THE TWO RESULTS ARE ONE VECTOR.

  Entry e of the kernel program's result is entry (e,0) of the score column: the score of row e of the gathered
  source rows, row e of the gathered destination rows and the weights as the call finds them.  Entry e of the
  reference's result is the same score of the reference's gathered rows and the weights as launched.  The gathered rows
  agree (the host lines before the edge stage are the same lines), the weight matrices reach the call as launched,
  and a bias vector re-laid as a [1,B] row has the vector's entries.
-/
import proofs.«108433_j89464168775877_1_alg».proof.Proof.EdgeRun
import proofs.«108433_j89464168775877_1_alg».proof.Proof.EdgeRef
import proofs.«108433_j89464168775877_1_alg».proof.Proof.EdgeGlue

set_option maxRecDepth 16384

noncomputable section

namespace Cert.EdgeBridge

open Idealize.ShloMosaic Idealize.ShloMosaic.TcCoe Idealize.ShloMosaic.ValueIdx Idealize.SL.Sem Cert.EdgeSpec Cert.Lib.EdgeLayers
open Cert.KernelIdeal.Gen Cert.KernelIdeal.EdgeValue Cert.KernelIdeal.EdgeGlue

variable (m : (ℓ : Loc Cert.KernelIdeal.nD Cert.KernelIdeal.τ Cert.KernelIdeal.sig) → Buf (Elt Ideal) ℓ)

/-- The kernel program's result is the reference's result term of the same arguments. -/
theorem result_eq (c : Dev Cert.KernelIdeal.nD) :
    Cert.KernelIdeal.EdgeRun.result m c = Cert.ReferenceIdeal.Read.val_main_v94 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) := by
  funext i
  obtain ⟨e, rfl⟩ : ∃ e : Fin 1600000, i = ix1 e := ⟨i 0, eq_ix1 i⟩
  rw [Cert.ReferenceIdeal.EdgeRef.result_at]
  refine (column_as_vector (col m c) _ e).trans ?_
  rw [col_apply]
  show colAt m c e = _
  unfold colAt scoreAt
  rw [src_eq, dst_eq, V_main_arg5, V_main_arg7, V_main_arg9, V_main_arg11, bias1_eq, bias2_eq, bias3_eq, bias4_eq,
    vector_as_row, vector_as_row, vector_as_entry, vector_as_entry]

end Cert.EdgeBridge

end
-- ==== Proof.lean ====
/-
  The kernel scores every edge of a graph: from the embeddings of the edge's two end nodes it forms three differences,
  a potential of the source node by a 64 -> 32 -> 1 perceptron, an interval, its square root and sign test, and feeds the
  six features to a 6 -> 64 -> 1 perceptron and the logistic function.  The node embeddings (a mean over neighbours by
  gathers and scatter-adds, two products, a bias, a maximum with zero) and the gathers of the embeddings' rows at the
  edges' ends are host lines, the same lines in both programs.  The kernel does the per-edge stage on blocks of 8000
  edges with [8000,1] columns and narrowing format changes before its four products; the reference does it on whole
  vectors of length 1600000 and spells the logistic function out as 1 / (1 + exp (-x)).  On the extended reals a
  format change is the identity, a product into a zero accumulator is the host's product, 0 - x is -x, and the
  logistic function is that quotient by definition: entry e of both results is Cert.EdgeSpec.score of row e of the
  gathered source rows, row e of the gathered destination rows and the weights.  The equality is structural; the
  precondition is not used.

  The modules: EdgeSpec (the score of one edge), LibEdgeLayers (layout operations and dense layers at an index), EdgeBody (the
  kernel body's block entry by entry), EdgeArray (blocks to the array), EdgeRun (the line after the call and the run),
  EdgeRef (the reference entry by entry), EdgeGlue (the host lines before the edge stage), EdgeBridge (the two results
  are one vector).  The frames are the generated ones; the reference's is its generated run with the result dropped.
-/
import proofs.«108433_j89464168775877_1_alg».proof.Defs
import proofs.«108433_j89464168775877_1_alg».proof.Proof.Gen.Kernel
import proofs.«108433_j89464168775877_1_alg».proof.Proof.Gen.Kernel.Skeleton
import proofs.«108433_j89464168775877_1_alg».proof.Proof.Gen.Kernel.Launch
import proofs.«108433_j89464168775877_1_alg».proof.Proof.Gen.Kernel.Points
import proofs.«108433_j89464168775877_1_alg».proof.Proof.Gen.Kernel.Frame
import proofs.«108433_j89464168775877_1_alg».proof.Proof.Gen.KernelIdeal
import proofs.«108433_j89464168775877_1_alg».proof.Proof.Gen.KernelIdeal.Skeleton
import proofs.«108433_j89464168775877_1_alg».proof.Proof.Gen.KernelIdeal.Launch
import proofs.«108433_j89464168775877_1_alg».proof.Proof.Gen.KernelIdeal.Points
import proofs.«108433_j89464168775877_1_alg».proof.Proof.Gen.KernelIdeal.Frame
import proofs.«108433_j89464168775877_1_alg».proof.Proof.Gen.ReferenceIdeal
import proofs.«108433_j89464168775877_1_alg».proof.Proof.Gen.Pre_finite_inputs
import proofs.«108433_j89464168775877_1_alg».proof.Proof.Gen.ReferenceIdeal.Run
import proofs.«108433_j89464168775877_1_alg».proof.Proof.Gen.ReferenceIdeal.Read
import proofs.«108433_j89464168775877_1_alg».proof.Proof.EdgeBridge
import Idealize.ShloMosaic.Adequacy
import Idealize.ShloMosaic.Init

noncomputable section

namespace Cert.Proof

open Idealize.ShloMosaic Idealize.SL.Sem Cert.Kernel

/-- The word-level kernel program runs and keeps its arguments. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference is a host program: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the vector of edge scores of arguments that agree. -/
theorem algebraic : Cert.algebraic_KernelIdeal_ReferenceIdeal := by
  intro m ρ m' ρ' _ hagree
  refine ⟨fun c => Cert.KernelIdeal.EdgeRun.result m c, Cert.KernelIdeal.EdgeRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v94_eq, h0, h1, h2, h3, h4, h5, h6, h7, h8, h9, h10, h11, h12]
  exact (Cert.EdgeBridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
